-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S6x128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg6
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x640000 32) (main_arg2 : IVec S640000 32) (main_arg3 : FVec F S128x128 .f32) (main_arg4 : FVec F S128 .f32) (main_arg5 : FVec F S6x128x128 .f32) (main_arg6 : FVec F S6x128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S6x128x128 .f32 := Host.absf main_arg5
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x128 : Shape := ⟨2, ![1, 128]⟩
abbrev S5000x128 : Shape := ⟨2, ![5000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S4000x128 : Shape := ⟨2, ![4000, 128]⟩
abbrev S4000x1 : Shape := ⟨2, ![4000, 1]⟩
abbrev S1x128x128 : Shape := ⟨3, ![1, 128, 128]⟩
abbrev S100000 : Shape := ⟨1, ![100000]⟩
abbrev S100000x1 : Shape := ⟨2, ![100000, 1]⟩
abbrev S1x1 : Shape := ⟨2, ![1, 1]⟩
abbrev S5000x1 : Shape := ⟨2, ![5000, 1]⟩

abbrev nBuf : Space → Nat
  | .hbm => 52
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S6x128x128, .f32⟩
  | .hbm, ⟨6, _⟩ => ⟨S6x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x128, .f32⟩
  | .hbm, ⟨14, _⟩ => ⟨S100000x128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x1, .i32⟩
  | .hbm, ⟨29, _⟩ => ⟨S640000x128, .f32⟩
  | .hbm, ⟨30, _⟩ => ⟨S_, .f32⟩
  | .hbm, ⟨31, _⟩ => ⟨S100000x128, .f32⟩
  | .hbm, ⟨32, _⟩ => ⟨S640000x1, .i32⟩
  | .hbm, ⟨33, _⟩ => ⟨S100000x128, .f32⟩
  | .hbm, ⟨34, _⟩ => ⟨S_, .f32⟩
  | .hbm, ⟨35, _⟩ => ⟨S640000, .f32⟩
  | .hbm, ⟨36, _⟩ => ⟨S_, .f32⟩
  | .hbm, ⟨37, _⟩ => ⟨S100000, .f32⟩
  | .hbm, ⟨38, _⟩ => ⟨S640000x1, .i32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S1x128, .f32⟩
  | .hbm, ⟨49, _⟩ => ⟨S1x1, .f32⟩
  | .hbm, ⟨50, _⟩ => ⟨S100000x128, .f32⟩
  | .hbm, ⟨51, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x1, .i32⟩
  | .local _ .vmem, ⟨9, _⟩ => ⟨S4000x1, .i32⟩
  | .local _ .vmem, ⟨10, _⟩ => ⟨S6x128x128, .f32⟩
  | .local _ .vmem, ⟨11, _⟩ => ⟨S6x128, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc2_sem9_0 : DmaSem sig := 26
abbrev cc2_sem9_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S6x128x128_S1x128x128_0_0_0 : ∀ a, (![0, 0, 0] : Fin 3 → Nat) a + S1x128x128.size a ≤ S6x128x128.size a
  h_S1x128x128 : 0 < S1x128x128.numel
  shapeCasts_S1x128x128_S128x128 : S1x128x128.ShapeCasts S128x128
  inb_S6x128_S1x128_0_0 : ∀ a, (![0, 0] : Fin 2 → Nat) a + S1x128.size a ≤ S6x128.size a
  shapeCasts_S1x128_S128 : S1x128.ShapeCasts S128
  broadcasts_S1x128_S4000x128 : S1x128.Broadcasts S4000x128
  natLt_1_32 : 1 < 32
  broadcasts_S4000x1_S4000x128 : S4000x1.Broadcasts S4000x128
  inb_S6x128x128_S1x128x128_1_0_0 : ∀ a, (![1, 0, 0] : Fin 3 → Nat) a + S1x128x128.size a ≤ S6x128x128.size a
  inb_S6x128_S1x128_1_0 : ∀ a, (![1, 0] : Fin 2 → Nat) a + S1x128.size a ≤ S6x128.size a
  inb_S6x128x128_S1x128x128_2_0_0 : ∀ a, (![2, 0, 0] : Fin 3 → Nat) a + S1x128x128.size a ≤ S6x128x128.size a
  inb_S6x128_S1x128_2_0 : ∀ a, (![2, 0] : Fin 2 → Nat) a + S1x128.size a ≤ S6x128.size a
  inb_S6x128x128_S1x128x128_3_0_0 : ∀ a, (![3, 0, 0] : Fin 3 → Nat) a + S1x128x128.size a ≤ S6x128x128.size a
  inb_S6x128_S1x128_3_0 : ∀ a, (![3, 0] : Fin 2 → Nat) a + S1x128.size a ≤ S6x128.size a
  inb_S6x128x128_S1x128x128_4_0_0 : ∀ a, (![4, 0, 0] : Fin 3 → Nat) a + S1x128x128.size a ≤ S6x128x128.size a
  inb_S6x128_S1x128_4_0 : ∀ a, (![4, 0] : Fin 2 → Nat) a + S1x128.size a ≤ S6x128.size a
  inb_S6x128x128_S1x128x128_5_0_0 : ∀ a, (![5, 0, 0] : Fin 3 → Nat) a + S1x128x128.size a ≤ S6x128x128.size a
  inb_S6x128_S1x128_5_0 : ∀ a, (![5, 0] : Fin 2 → Nat) a + S1x128.size a ≤ S6x128.size a
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  dot_S4000x128_S128x128_S4000x128_1_0_0_1_n_n_wf : DotDims.WF S4000x128 S128x128 S4000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S640000x128.size a
  hwx1_0 : ∀ i : grid1.Coords, EltTy.bits .f32 = 32 ∨ (Rect.block (s := S640000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S640000x1.size a
  hwx1_1 : ∀ i : grid1.Coords, EltTy.bits .i32 = 32 ∨ (Rect.block (s := S640000x1) S4000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x128x128.size a ≤ S6x128x128.size a
  hwx1_2 : ∀ i : grid1.Coords, EltTy.bits .f32 = 32 ∨ (Rect.block (s := S6x128x128) S6x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x128.size a ≤ S6x128.size a
  hwx1_3 : ∀ i : grid1.Coords, EltTy.bits .f32 = 32 ∨ (Rect.block (s := S6x128) S6x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S640000x128.size a
  hwx1_4 : ∀ i : grid1.Coords, EltTy.bits .f32 = 32 ∨ (Rect.block (s := S640000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S100000x1.size a
  hwx2_9 : ∀ i : grid2.Coords, EltTy.bits .f32 = 32 ∨ (Rect.block (s := S100000x1) S5000x1.size (cc2_transform_9 i) (hinb2_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S6x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S6x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S128x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v29_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v29_1) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x128 : Shape := ⟨2, ![1, 128]⟩
abbrev S_ : Shape := ⟨0, ![]⟩
abbrev S1x640000 : Shape := ⟨2, ![1, 640000]⟩
abbrev S640000x1 : Shape := ⟨2, ![640000, 1]⟩
abbrev S640000x128 : Shape := ⟨2, ![640000, 128]⟩
abbrev S1x128x128 : Shape := ⟨3, ![1, 128, 128]⟩
abbrev S100000 : Shape := ⟨1, ![100000]⟩
abbrev S100000x1 : Shape := ⟨2, ![100000, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x640000, .i32⟩
  | 2 => ⟨S640000, .i32⟩
  | 3 => ⟨S128x128, .f32⟩
  | 4 => ⟨S128, .f32⟩
  | 5 => ⟨S6x128x128, .f32⟩
  | 6 => ⟨S6x128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S640000x128, .f32⟩
  | 35 => ⟨S_, .i32⟩
  | 36 => ⟨S640000, .i32⟩
  | 37 => ⟨S640000, .i1⟩
  | 38 => ⟨S640000, .f32⟩
  | 39 => ⟨S640000x1, .f32⟩
  | 40 => ⟨S1x128x128, .f32⟩
  | 41 => ⟨S128x128, .f32⟩
  | 42 => ⟨S640000x128, .f32⟩
  | 43 => ⟨S1x128, .f32⟩
  | 44 => ⟨S128, .f32⟩
  | 45 => ⟨S1x128, .f32⟩
  | 46 => ⟨S640000x128, .f32⟩
  | 47 => ⟨S640000x128, .f32⟩
  | 48 => ⟨S640000x128, .f32⟩
  | 49 => ⟨S640000x128, .f32⟩
  | 50 => ⟨S640000x128, .f32⟩
  | 51 => ⟨S_, .i32⟩
  | 52 => ⟨S640000, .i32⟩
  | 53 => ⟨S640000, .i1⟩
  | 54 => ⟨S640000, .f32⟩
  | 55 => ⟨S640000x1, .f32⟩
  | 56 => ⟨S1x128x128, .f32⟩
  | 57 => ⟨S128x128, .f32⟩
  | 58 => ⟨S640000x128, .f32⟩
  | 59 => ⟨S1x128, .f32⟩
  | 60 => ⟨S128, .f32⟩
  | 61 => ⟨S1x128, .f32⟩
  | 62 => ⟨S640000x128, .f32⟩
  | 63 => ⟨S640000x128, .f32⟩
  | 64 => ⟨S640000x128, .f32⟩
  | 65 => ⟨S640000x128, .f32⟩
  | 66 => ⟨S640000x128, .f32⟩
  | 67 => ⟨S_, .i32⟩
  | 68 => ⟨S640000, .i32⟩
  | 69 => ⟨S640000, .i1⟩
  | 70 => ⟨S640000, .f32⟩
  | 71 => ⟨S640000x1, .f32⟩
  | 72 => ⟨S1x128x128, .f32⟩
  | 73 => ⟨S128x128, .f32⟩
  | 74 => ⟨S640000x128, .f32⟩
  | 75 => ⟨S1x128, .f32⟩
  | 76 => ⟨S128, .f32⟩
  | 77 => ⟨S1x128, .f32⟩
  | 78 => ⟨S640000x128, .f32⟩
  | 79 => ⟨S640000x128, .f32⟩
  | 80 => ⟨S640000x128, .f32⟩
  | 81 => ⟨S640000x128, .f32⟩
  | 82 => ⟨S640000x128, .f32⟩
  | 83 => ⟨S_, .i32⟩
  | 84 => ⟨S640000, .i32⟩
  | 85 => ⟨S640000, .i1⟩
  | 86 => ⟨S640000, .f32⟩
  | 87 => ⟨S640000x1, .f32⟩
  | 88 => ⟨S1x128x128, .f32⟩
  | 89 => ⟨S128x128, .f32⟩
  | 90 => ⟨S640000x128, .f32⟩
  | 91 => ⟨S1x128, .f32⟩
  | 92 => ⟨S128, .f32⟩
  | 93 => ⟨S1x128, .f32⟩
  | 94 => ⟨S640000x128, .f32⟩
  | 95 => ⟨S640000x128, .f32⟩
  | 96 => ⟨S640000x128, .f32⟩
  | 97 => ⟨S640000x128, .f32⟩
  | 98 => ⟨S640000x128, .f32⟩
  | 99 => ⟨S_, .i32⟩
  | 100 => ⟨S640000, .i32⟩
  | 101 => ⟨S640000, .i1⟩
  | 102 => ⟨S640000, .f32⟩
  | 103 => ⟨S640000x1, .f32⟩
  | 104 => ⟨S1x128x128, .f32⟩
  | 105 => ⟨S128x128, .f32⟩
  | 106 => ⟨S640000x128, .f32⟩
  | 107 => ⟨S1x128, .f32⟩
  | 108 => ⟨S128, .f32⟩
  | 109 => ⟨S1x128, .f32⟩
  | 110 => ⟨S640000x128, .f32⟩
  | 111 => ⟨S640000x128, .f32⟩
  | 112 => ⟨S640000x128, .f32⟩
  | 113 => ⟨S640000x128, .f32⟩
  | 114 => ⟨S640000x128, .f32⟩
  | 115 => ⟨S_, .i32⟩
  | 116 => ⟨S640000, .i32⟩
  | 117 => ⟨S640000, .i1⟩
  | 118 => ⟨S640000, .f32⟩
  | 119 => ⟨S640000x1, .f32⟩
  | 120 => ⟨S1x128x128, .f32⟩
  | 121 => ⟨S128x128, .f32⟩
  | 122 => ⟨S640000x128, .f32⟩
  | 123 => ⟨S1x128, .f32⟩
  | 124 => ⟨S128, .f32⟩
  | 125 => ⟨S1x128, .f32⟩
  | 126 => ⟨S640000x128, .f32⟩
  | 127 => ⟨S640000x128, .f32⟩
  | _ => ⟨S100000x128, .f32⟩

abbrev hbmTy0_1 (i : Nat) : BufTy := match i % 128 with
  | 0 => ⟨S640000x128, .f32⟩
  | 1 => ⟨S640000x128, .f32⟩
  | 2 => ⟨S640000x128, .f32⟩
  | 3 => ⟨S_, .f32⟩
  | 4 => ⟨S100000x128, .f32⟩
  | 5 => ⟨S640000x1, .i32⟩
  | 6 => ⟨S100000x128, .f32⟩
  | 7 => ⟨S_, .f32⟩
  | 8 => ⟨S640000, .f32⟩
  | 9 => ⟨S_, .f32⟩
  | 10 => ⟨S100000, .f32⟩
  | 11 => ⟨S640000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S100000x1, .f32⟩
  | 33 => ⟨S1x1, .f32⟩
  | 34 => ⟨S100000x1, .f32⟩
  | 35 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_4 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_5 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_6 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_7 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_8 : Ref sig .tc := ⟨.hbm, 135, rfl⟩
abbrev main_v110 : Ref sig .tc := ⟨.hbm, 136, rfl⟩
abbrev main_cst_9 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_10 : Ref sig .tc := ⟨.hbm, 141, rfl⟩
abbrev main_call1_v0 : Ref sig .tc := ⟨.hbm, 142, rfl⟩
abbrev main_call1_v1 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_call2_cst : Ref sig .tc := ⟨.hbm, 153, rfl⟩
abbrev main_call2_v0 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S1x128_S640000x128_0_1 : S1x128.BroadcastsInDim S640000x128 (![0, 1] : Fin 2 → Fin S640000x128.rank)
  bcast_S640000x1_S640000x128_0_1 : S640000x1.BroadcastsInDim S640000x128 (![0, 1] : Fin 2 → Fin S640000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel program's run with its two results named.

  The program is three pipelined kernels among stretches of host operations. Its run is the chain of those eight
  segments; at the end every buffer of the TensorCore holds the last boundary's contents (the fold `W8` of the
  generated frame: the launch memory pushed through each host stretch and, at each kernel, overwritten in that kernel's
  arrays by what its write-backs leave). Read at the two result buffers this names what the program returns; read at
  the thirteen arguments it gives them back unchanged.
-/
import proofs.«111703_j26723286515871_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at the last
    boundary's contents and the arguments as launched. -/
theorem run_named : θ_run defs (onTc (τ := τ) (main (F := F))) ⟨m, fun _ => 0, ρ⟩ (fun r => ∀ c : Dev nD,
      r.2.mem ((c.tc : Thread nD τ).loc main_v29_0) = W8 m ρ c (Proc.devRef .tc main_v29_0)
      ∧ r.2.mem ((c.tc : Thread nD τ).loc main_v29_1) = W8 m ρ c (Proc.devRef .tc main_v29_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v29_0 (by decide)), h c _ (mem_uc main_v29_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Named

end
-- ==== Proof.HostTerms.lean ====
/-
  The network, stage by stage, as whole-array functions on the extended reals.

  A relational graph layer with mean aggregation:
    h      = max(x · W_in + b_in, 0)                                   one row per node
    h_src  = the rows of h gathered by each edge's source node
    msg    = Σ_r [edge type = r] · (h_src · W_rel[r] + b_rel[r])       one row per edge, r = 0 … 5, summed in that order from 0
    agg    = the rows of msg summed into their destination nodes, divided by max(1, number of incoming edges)
    emb    = max((h + agg) · W_o1 + b_o1, 0) · W_o2 + b_o2
    pred   = emb · W_p + b_p
  Each stage is spelt with the host operations the reference program applies, so that the reference's result is the
  composition of the stages by unfolding, and each kernel's output array can be compared with one stage.
-/
import proofs.«111703_j26723286515871_1_alg».proof.ReferenceIdeal
import proofs.«111703_j26723286515871_1_alg».proof.Proof.Gen.ReferenceIdeal
import Idealize.ShloMosaic.PureOps.Ideal

noncomputable section

namespace Cert.Rgat

open Idealize.ShloMosaic Cert.ReferenceIdeal Cert.ReferenceIdeal.Gen

/-- A bias vector laid out as a one-row matrix. -/
def biasRow (b : FVec Ideal S128 .f32) : FVec Ideal S1x128 .f32 :=
  broadcastInDim S1x128 ![1] bcast_S128_S1x128_1 b

/-- A dense layer with rectification on every node's row: max(x · W + b, 0), the bias given as a one-row matrix. -/
def denseRelu (x : FVec Ideal S100000x128 .f32) (W : FVec Ideal S128x128 .f32) (B : FVec Ideal S1x128 .f32) :
    FVec Ideal S100000x128 .f32 :=
  maximumf (addf (Host.dotGeneral dot_S100000x128_S128x128_S100000x128_1_0_0_1_n_n none x W)
      (broadcastInDim S100000x128 ![0, 1] bcast_S1x128_S100000x128_0_1 B))
    (broadcastInDim S100000x128 ![] bcast_S_S100000x128 (constant (F := Ideal) S_ .f32 0x00000000#32))

/-- Row p of the edge list (0: sources, 1: destinations) as a vector. -/
def edgeRow (k : Fin 2 → Nat) (hk : S2x640000.Slices k S1x640000) (ei : IVec S2x640000 32) : IVec S640000 32 :=
  shapeCast _ (extractStridedSlice S1x640000 k ei hk) shapeCasts_S1x640000_S640000

/-- The source node of every edge as a column, a negative number counted from the end. -/
def srcCol (ei : IVec S2x640000 32) : IVec S640000x1 32 :=
  broadcastInDim S640000x1 ![0] bcast_S640000_S640000x1_0
    (select (cmpi .slt (edgeRow ![0, 0] slices_S2x640000_S1x640000_0_0 ei) (broadcastInDim S640000 ![] bcast_S_S640000 (constantI S_ 32 0#32)))
      (addi (edgeRow ![0, 0] slices_S2x640000_S1x640000_0_0 ei) (broadcastInDim S640000 ![] bcast_S_S640000 (constantI S_ 32 100000#32)))
      (edgeRow ![0, 0] slices_S2x640000_S1x640000_0_0 ei))

/-- The destination node of every edge as a column. -/
def dstCol (ei : IVec S2x640000 32) : IVec S640000x1 32 :=
  broadcastInDim S640000x1 ![0] bcast_S640000_S640000x1_0 (edgeRow ![1, 0] slices_S2x640000_S1x640000_1_0 ei)

/-- Every edge's source row of h. -/
def gatherRows (h : FVec Ideal S100000x128 .f32) (ei : IVec S2x640000 32) : FVec Ideal S640000x128 .f32 :=
  Host.gather gather_S100000x128_S640000x1_S640000x128_1_0_n_n_0_1_1128 h (srcCol ei)

/-- Relation r's share of the messages: [edge type = r] · (h_src · W_rel[r] + b_rel[r]). -/
def relTerm (r : BitVec 32) (k3 : Fin 3 → Nat) (h3 : S6x128x128.Slices k3 S1x128x128) (k2 : Fin 2 → Nat)
    (h2 : S6x128.Slices k2 S1x128) (hs : FVec Ideal S640000x128 .f32) (et : IVec S640000 32)
    (Wrel : FVec Ideal S6x128x128 .f32) (brel : FVec Ideal S6x128 .f32) : FVec Ideal S640000x128 .f32 :=
  mulf (broadcastInDim S640000x128 ![0, 1] bcast_S640000x1_S640000x128_0_1
      (broadcastInDim S640000x1 ![0] bcast_S640000_S640000x1_0
        (uitofp .f32 (cmpi .eq et (broadcastInDim S640000 ![] bcast_S_S640000 (constantI S_ 32 r))))))
    (addf (Host.dotGeneral dot_S640000x128_S128x128_S640000x128_1_0_0_1_n_n none hs
        (shapeCast _ (extractStridedSlice S1x128x128 k3 Wrel h3) shapeCasts_S1x128x128_S128x128))
      (broadcastInDim S640000x128 ![0, 1] bcast_S1x128_S640000x128_0_1
        (broadcastInDim S1x128 ![1] bcast_S128_S1x128_1
          (shapeCast _ (extractStridedSlice S1x128 k2 brel h2) shapeCasts_S1x128_S128))))

/-- The messages: the six relations' shares added, in order, onto zeros. -/
def messages (hs : FVec Ideal S640000x128 .f32) (et : IVec S640000 32)
    (Wrel : FVec Ideal S6x128x128 .f32) (brel : FVec Ideal S6x128 .f32) : FVec Ideal S640000x128 .f32 :=
  addf (addf (addf (addf (addf (addf
    (broadcastInDim S640000x128 ![] bcast_S_S640000x128 (constant (F := Ideal) S_ .f32 0x00000000#32))
    (relTerm 0#32 ![0, 0, 0] slices_S6x128x128_S1x128x128_0_0_0 ![0, 0] slices_S6x128_S1x128_0_0 hs et Wrel brel))
    (relTerm 1#32 ![1, 0, 0] slices_S6x128x128_S1x128x128_1_0_0 ![1, 0] slices_S6x128_S1x128_1_0 hs et Wrel brel))
    (relTerm 2#32 ![2, 0, 0] slices_S6x128x128_S1x128x128_2_0_0 ![2, 0] slices_S6x128_S1x128_2_0 hs et Wrel brel))
    (relTerm 3#32 ![3, 0, 0] slices_S6x128x128_S1x128x128_3_0_0 ![3, 0] slices_S6x128_S1x128_3_0 hs et Wrel brel))
    (relTerm 4#32 ![4, 0, 0] slices_S6x128x128_S1x128x128_4_0_0 ![4, 0] slices_S6x128_S1x128_4_0 hs et Wrel brel))
    (relTerm 5#32 ![5, 0, 0] slices_S6x128x128_S1x128x128_5_0_0 ![5, 0] slices_S6x128_S1x128_5_0 hs et Wrel brel)

/-- The mean of the messages arriving at every node: their sum by destination over max(1, their number). -/
def aggNorm (dst : IVec S640000x1 32) (msg : FVec Ideal S640000x128 .f32) : FVec Ideal S100000x128 .f32 :=
  Host.divf
    (Host.scatterAdd scatter_S100000x128_S640000x1_S640000x128_1_0_0_1
      (broadcastInDim S100000x128 ![] bcast_S_S100000x128 (constant (F := Ideal) S_ .f32 0x00000000#32)) dst msg)
    (broadcastInDim S100000x128 ![0, 1] bcast_S100000x1_S100000x128_0_1
      (broadcastInDim S100000x1 ![0] bcast_S100000_S100000x1_0
        (maximumf (broadcastInDim S100000 ![] bcast_S_S100000 (id (constant (F := Ideal) S_ .f32 0x3F800000#32)))
          (Host.scatterAdd scatter_S100000_S640000x1_S640000_n_0_0_1
            (broadcastInDim S100000 ![] bcast_S_S100000 (constant (F := Ideal) S_ .f32 0x00000000#32)) dst
            (broadcastInDim S640000 ![] bcast_S_S640000 (constant (F := Ideal) S_ .f32 0x3F800000#32))))))

/-- The two output layers on h + agg: max((h + a) · W₁ + b₁, 0) · W₂ + b₂, the biases as one-row matrices. -/
def outLayers (h a : FVec Ideal S100000x128 .f32) (W1 : FVec Ideal S128x128 .f32) (B1 : FVec Ideal S1x128 .f32)
    (W2 : FVec Ideal S128x128 .f32) (B2 : FVec Ideal S1x128 .f32) : FVec Ideal S100000x128 .f32 :=
  addf (Host.dotGeneral dot_S100000x128_S128x128_S100000x128_1_0_0_1_n_n none (denseRelu (addf h a) W1 B1) W2)
    (broadcastInDim S100000x128 ![0, 1] bcast_S1x128_S100000x128_0_1 B2)

/-- The prediction head: e · W_p + b_p, the bias a one-by-one matrix. -/
def predHead (e : FVec Ideal S100000x128 .f32) (Wp : FVec Ideal S128x1 .f32) (Bp : FVec Ideal S1x1 .f32) :
    FVec Ideal S100000x1 .f32 :=
  addf (Host.dotGeneral dot_S100000x128_S128x1_S100000x1_1_0_0_1_n_n none e Wp)
    (broadcastInDim S100000x1 ![0, 1] bcast_S1x1_S100000x1_0_1 Bp)

/-- The node embeddings as one function of the thirteen inputs' first eleven. -/
def embedding (x : FVec Ideal S100000x128 .f32) (ei : IVec S2x640000 32) (et : IVec S640000 32)
    (Win : FVec Ideal S128x128 .f32) (bin : FVec Ideal S128 .f32) (Wrel : FVec Ideal S6x128x128 .f32)
    (brel : FVec Ideal S6x128 .f32) (Wo1 : FVec Ideal S128x128 .f32) (bo1 : FVec Ideal S128 .f32)
    (Wo2 : FVec Ideal S128x128 .f32) (bo2 : FVec Ideal S128 .f32) : FVec Ideal S100000x128 .f32 :=
  outLayers (denseRelu x Win (biasRow bin))
    (aggNorm (dstCol ei) (messages (gatherRows (denseRelu x Win (biasRow bin)) ei) et Wrel brel))
    Wo1 (biasRow bo1) Wo2 (biasRow bo2)

/-- The predictions as one function of the thirteen inputs. -/
def prediction (x : FVec Ideal S100000x128 .f32) (ei : IVec S2x640000 32) (et : IVec S640000 32)
    (Win : FVec Ideal S128x128 .f32) (bin : FVec Ideal S128 .f32) (Wrel : FVec Ideal S6x128x128 .f32)
    (brel : FVec Ideal S6x128 .f32) (Wo1 : FVec Ideal S128x128 .f32) (bo1 : FVec Ideal S128 .f32)
    (Wo2 : FVec Ideal S128x128 .f32) (bo2 : FVec Ideal S128 .f32) (Wp : FVec Ideal S128x1 .f32)
    (bp : FVec Ideal S1 .f32) : FVec Ideal S100000x1 .f32 :=
  predHead (embedding x ei et Win bin Wrel brel Wo1 bo1 Wo2 bo2) Wp (broadcastInDim S1x1 ![1] bcast_S1_S1x1_1 bp)

end Cert.Rgat

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«111703_j26723286515871_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibTwoLayerRows.lean ====
/-
  Two dense layers on a block of rows, at the ideal values.

  A perceptron  z ↦ max(z·Wa + ba, 0)·Wb + bb  (optionally followed by a last max with a constant) applied to every
  row of an [N, K] array can be computed one block of R consecutive rows at a time: the block's rows of the input
  (here a sum of two arrays) meet the whole weight matrices and one-row biases, and the matrix products run on
  operands first narrowed to another float format — the identity on the extended reals.  Each theorem says: the
  block computation read at an entry y equals the whole-array host computation read where y sits in the array.
  A block of rows is described by an embedding of its entries that shifts the row by an offset and keeps the column.
-/
import Idealize.ShloMosaic.PureOps.Ideal.Laws
import Idealize.ShloMosaic.Lib.ValueIdx
import Idealize.ShloMosaic.Lib.Pipeline.Value
import proofs.«111703_j26723286515871_1_alg».proof.Proof.LibRowBlocks

noncomputable section

namespace Cert.Lib.TwoLayerRows

open Idealize.ShloMosaic Idealize.ShloMosaic.ValueIdx Cert.Lib.PlainDot Cert.Bridge
open scoped BigOperators

variable {R N K H C : Nat}

/-- An embedding of the entries of an [R, C] block into an [N, C] array as rows o … o + R − 1, columns kept. -/
structure RowEmb {C : Nat} (e : (⟨2, ![R, C]⟩ : Shape).Idx → (⟨2, ![N, C]⟩ : Shape).Idx) (o : Nat) : Prop where
  row : ∀ j, (e j 0).val = o + (j 0).val
  col : ∀ j, (e j 1).val = (j 1).val

/-- Entry (r, k) of the left block sits in the array's row of the output entry (r, c), column k. -/
theorem RowEmb.rowIdx_eq {eK : (⟨2, ![R, K]⟩ : Shape).Idx → (⟨2, ![N, K]⟩ : Shape).Idx}
    {eC : (⟨2, ![R, C]⟩ : Shape).Idx → (⟨2, ![N, C]⟩ : Shape).Idx} {o : Nat}
    (hK : RowEmb eK o) (hC : RowEmb eC o) (y : (⟨2, ![R, C]⟩ : Shape).Idx) (k : Fin K) :
    eK (rowIdx y k) = rowIdx (eC y) k :=
  funext fun a => Fin.ext (by
    match a with
    | ⟨0, _⟩ => exact (hK.row _).trans (hC.row y).symm
    | ⟨1, _⟩ => exact hK.col _)

/-- The right factor is whole: entry (k, c) of it is read at the column of the output entry. -/
theorem RowEmb.colIdx_eq {eC : (⟨2, ![R, C]⟩ : Shape).Idx → (⟨2, ![N, C]⟩ : Shape).Idx} {o : Nat}
    (hC : RowEmb eC o) (y : (⟨2, ![R, C]⟩ : Shape).Idx) (k : Fin K) :
    (colIdx y k : (⟨2, ![K, C]⟩ : Shape).Idx) = colIdx (eC y) k :=
  funext fun a => Fin.ext (by
    match a with
    | ⟨0, _⟩ => rfl
    | ⟨1, _⟩ => exact (hC.col y).symm)

/-- The one-row bias is whole: it is read at the column of the output entry. -/
theorem RowEmb.rowZero_eq {eC : (⟨2, ![R, C]⟩ : Shape).Idx → (⟨2, ![N, C]⟩ : Shape).Idx} {o : Nat}
    (hC : RowEmb eC o) (y : (⟨2, ![R, C]⟩ : Shape).Idx) :
    (rowZero y : (⟨2, ![1, C]⟩ : Shape).Idx) = rowZero (eC y) :=
  funext fun a => Fin.ext (by
    match a with
    | ⟨0, _⟩ => rfl
    | ⟨1, _⟩ => exact (hC.col y).symm)

/-- THE FIRST LAYER of a row block: the two input blocks added, narrowed, multiplied by the narrowed weights into
    zeros, the bias row stretched over the rows, maximum with a constant — against the host's whole arrays. -/
theorem first_layer_block {ψ : FTy} (hψ : ψ.bits < FTy.f32.bits)
    (d : DotDims ⟨2, ![R, K]⟩ ⟨2, ![K, H]⟩ ⟨2, ![R, H]⟩) (hd : d = DotDims.plain R K H)
    (D : DotDims ⟨2, ![N, K]⟩ ⟨2, ![K, H]⟩ ⟨2, ![N, H]⟩) (hD : D = DotDims.plain N K H)
    (prec prec' : Option ContractPrecision)
    (X A : FVec Ideal ⟨2, ![N, K]⟩ .f32) (Wa : FVec Ideal ⟨2, ![K, H]⟩ .f32) (Ba : FVec Ideal ⟨2, ![1, H]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx) (o : Nat)
    (hK : RowEmb eK o) (hH : RowEmb eH o)
    (hx0 : ∀ j, x0 j = X (eK j)) (hx1 : ∀ j, x1 j = A (eK j))
    (hb : (⟨2, ![1, H]⟩ : Shape).Broadcasts ⟨2, ![R, H]⟩)
    (hB : (⟨2, ![1, H]⟩ : Shape).BroadcastsInDim ⟨2, ![N, H]⟩ ![0, 1])
    (hZ : (⟨0, ![]⟩ : Shape).BroadcastsInDim ⟨2, ![N, H]⟩ ![]) (z : BitVec 32)
    (y : (⟨2, ![R, H]⟩ : Shape).Idx) :
    maximumf (addf (matmul d prec (truncf ψ (addf x0 x1) hψ) (truncf ψ Wa hψ) (constant ⟨2, ![R, H]⟩ .f32 0x00000000#32))
          (broadcastTo ⟨2, ![R, H]⟩ Ba hb))
        (broadcast ⟨2, ![R, H]⟩ (Scalar.ofBits (F := Ideal) .f32 z)) y
      = maximumf (addf (Host.dotGeneral D prec' (addf X A) Wa) (broadcastInDim ⟨2, ![N, H]⟩ ![0, 1] hB Ba))
        (broadcastInDim ⟨2, ![N, H]⟩ ![] hZ (constant (F := Ideal) ⟨0, ![]⟩ .f32 z)) (eH y) :=
  embed_block ψ ψ d hd D hD prec prec' (addf X A) Wa Ba (truncf ψ (addf x0 x1) hψ) (truncf ψ Wa hψ) Ba
    eK id id eH
    (fun j => by rw [truncf_apply, addf_apply, addf_apply, hx0, hx1])
    (fun j => truncf_apply Wa hψ j) (fun _ => rfl)
    (fun y k => hK.rowIdx_eq hH y k) (fun y k => hH.colIdx_eq y k) (fun y => hH.rowZero_eq y)
    hb hB hZ z y

/-- BOTH LAYERS of a row block, ending in a maximum with the constant. -/
theorem two_layers_max_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1])
    (hZB : (⟨0, ![]⟩ : Shape).BroadcastsInDim ⟨2, ![N, C]⟩ ![]) (z : BitVec 32)
    (y : (⟨2, ![R, C]⟩ : Shape).Idx) :
    maximumf (addf (matmul dB prec
            (truncf ψ (maximumf (addf (matmul dA prec (truncf ψ (addf x0 x1) hψ) (truncf ψ Wa hψ) (constant ⟨2, ![R, H]⟩ .f32 0x00000000#32))
                (broadcastTo ⟨2, ![R, H]⟩ Ba hbA)) (broadcast ⟨2, ![R, H]⟩ (Scalar.ofBits (F := Ideal) .f32 z))) hψ)
            (truncf ψ Wb hψ) (constant ⟨2, ![R, C]⟩ .f32 0x00000000#32))
          (broadcastTo ⟨2, ![R, C]⟩ Bb hbB))
        (broadcast ⟨2, ![R, C]⟩ (Scalar.ofBits (F := Ideal) .f32 z)) y
      = maximumf (addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb))
        (broadcastInDim ⟨2, ![N, C]⟩ ![] hZB (constant (F := Ideal) ⟨0, ![]⟩ .f32 z)) (eC y) :=
  embed_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB hZB z y

/-- BOTH LAYERS of a row block, the second one without a final maximum. -/
theorem two_layers_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1]) (z : BitVec 32)
    (y : (⟨2, ![R, C]⟩ : Shape).Idx) :
    addf (matmul dB prec
          (truncf ψ (maximumf (addf (matmul dA prec (truncf ψ (addf x0 x1) hψ) (truncf ψ Wa hψ) (constant ⟨2, ![R, H]⟩ .f32 0x00000000#32))
              (broadcastTo ⟨2, ![R, H]⟩ Ba hbA)) (broadcast ⟨2, ![R, H]⟩ (Scalar.ofBits (F := Ideal) .f32 z))) hψ)
          (truncf ψ Wb hψ) (constant ⟨2, ![R, C]⟩ .f32 0x00000000#32))
        (broadcastTo ⟨2, ![R, C]⟩ Bb hbB) y
      = addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb) (eC y) :=
  output_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB y

end Cert.Lib.TwoLayerRows

end
-- ==== Proof.InputLayer.lean ====
/-
  The first kernel: h = max(x · W_in + b_in, 0), twenty blocks of 5000 rows.

  Grid point t reads rows 5000·t … 5000·t + 4999 of x, the whole weight matrix and the one-row bias, and writes the
  same rows of h. A row of a matrix product depends only on the same row of the left factor, so the block it writes is
  the block of the whole-array computation (the narrowing of the product's operands is the identity on the extended
  reals). The twenty blocks tile the 100000 rows, so after the kernel the array is the whole-array computation of the
  contents the kernel found in its three input arrays, whatever those are.
-/
import proofs.«111703_j26723286515871_1_alg».proof.Proof.Gen.KernelIdeal.Frame
import proofs.«111703_j26723286515871_1_alg».proof.Proof.HostTerms
import proofs.«111703_j26723286515871_1_alg».proof.Proof.LibTwoLayerRows
import Idealize.ShloMosaic.Lib.Pipeline.Value
import Idealize.ShloMosaic.Lib.ValueIdx

set_option maxRecDepth 16384

noncomputable section

namespace Cert.Rgat.InputLayer

open Idealize.ShloMosaic Idealize.ShloMosaic.ValueIdx Idealize.ShloMosaic.TcCoe Idealize.SL.Sem
open Idealize.ShloMosaic.Pipeline (Dat)
open Cert.KernelIdeal Cert.KernelIdeal.Gen
open Cert.Lib.PlainDot Cert.Bridge Cert.Lib.TwoLayerRows

theorem origin2 : (![0, 0] : Fin 2 → Nat) = fun _ => 0 := funext fun a => by fin_cases a <;> rfl

/-- One block: what the body stores, read at an entry, is the whole-array layer at the entry's place in the array —
    for a left block that is rows o … o + 4999 of X, and the whole W and B. -/
theorem block_entry (X : FVec Ideal S100000x128 .f32) (W : FVec Ideal S128x128 .f32) (B : FVec Ideal S1x128 .f32)
    (x0 : Vec Ideal S5000x128 .f32) (x1 : Vec Ideal S128x128 .f32) (x2 : Vec Ideal S1x128 .f32)
    (e : S5000x128.Idx → S100000x128.Idx) (o : Nat) (he : RowEmb e o)
    (hx0 : ∀ j, x0 j = X (e j)) (hx1 : ∀ j, x1 j = W j) (hx2 : ∀ j, x2 j = B j) (y : S5000x128.Idx) :
    k0_pay1 x0 x1 x2 y = Cert.Rgat.denseRelu X W B (e y) := by
  unfold k0_pay1 Cert.Rgat.denseRelu
  exact embed_block .bf16 .bf16 _ rfl _ rfl none none X W B
    (truncf .bf16 x0 bitsLt_bf16_f32) (truncf .bf16 x1 bitsLt_bf16_f32) (shapeCast S1x128 x2 shapeCasts_S1x128_S1x128)
    e id id e
    (fun j => (truncf_apply x0 bitsLt_bf16_f32 j).trans (hx0 j))
    (fun j => (truncf_apply x1 bitsLt_bf16_f32 j).trans (hx1 j))
    (fun j => (congrFun (shapeCast_self x2 shapeCasts_S1x128_S1x128) j).trans (hx2 j))
    (fun y k => he.rowIdx_eq he y k) (fun y k => he.colIdx_eq y k) (fun y => he.rowZero_eq y)
    _ _ _ 0x00000000#32 y

/-- The printed index maps over the grid: the row-blocked windows sit at block (t, 0), the whole ones at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the whole-array layer of the arrays the kernel found. -/
theorem flushed_eq (c : Dev nD) (t : Fin cfg0.N) :
    (dat0 V c).flushed 3 t = ((cfg0.win 3).blk t).view.read (Elt Ideal)
      (Cert.Rgat.denseRelu (V c main_arg0) (V c main_arg3) (V c main_v0)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2,
    View.ld_unit_zero (S := S1x128) origin2]
  obtain ⟨a0, a1, b0, b1, c0, c1, d0, d1⟩ := idx_facts t
  funext y
  show k0_pay1 (iblk0 V c 0 t) (iblk0 V c 1 t) (iblk0 V c 2 t) y
    = Cert.Rgat.denseRelu (V c main_arg0) (V c main_arg3) (V c main_v0) (((cfg0.win 3).blk t).view.emb y)
  have h0 : ∀ j, ((cfg0.win 0).blk t).view.emb j = ((cfg0.win 3).blk t).view.emb j := fun j => by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ∀ j, ((cfg0.win 1).blk t).view.emb j = j := fun j => by
    funext a; apply Fin.ext
    match a with
    | ⟨0, _⟩ => show win0_1.index t (0 : Fin 2) * 128 + 1 * (j 0).val = (j 0).val; omega
    | ⟨1, _⟩ => show win0_1.index t (1 : Fin 2) * 128 + 1 * (j 1).val = (j 1).val; omega
  have h2 : ∀ j, ((cfg0.win 2).blk t).view.emb j = j := fun j => by
    funext a; apply Fin.ext
    match a with
    | ⟨0, _⟩ => show win0_2.index t (0 : Fin 2) * 1 + 1 * (j 0).val = (j 0).val; omega
    | ⟨1, _⟩ => show win0_2.index t (1 : Fin 2) * 128 + 1 * (j 1).val = (j 1).val; omega
  exact block_entry (V c main_arg0) (V c main_arg3) (V c main_v0) (iblk0 V c 0 t) (iblk0 V c 1 t) (iblk0 V c 2 t)
    (((cfg0.win 3).blk t).view.emb) (t.val * 5000)
    ⟨fun j => by show win0_3.index t (0 : Fin 2) * 5000 + 1 * (j 0).val = t.val * 5000 + (j 0).val; omega,
     fun j => by show win0_3.index t (1 : Fin 2) * 128 + 1 * (j 1).val = (j 1).val; omega⟩
    (fun j => show V c main_arg0 (((cfg0.win 0).blk t).view.emb j) = _ from congrArg (V c main_arg0) (h0 j))
    (fun j => show V c main_arg3 (((cfg0.win 1).blk t).view.emb j) = _ from congrArg (V c main_arg3) (h1 j))
    (fun j => show V c main_v0 (((cfg0.win 2).blk t).view.emb j) = _ from congrArg (V c main_v0) (h2 j))
    y

/-- An index of h is in point t's block iff its row is among the block's 5000. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- The twenty blocks cover h: row r is in the block of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hq : (i 0).val / 5000 < cfg0.N := by rw [show cfg0.N = 20 from N_0]; omega
  obtain ⟨_, _, _, _, _, _, d0, d1⟩ := idx_facts ⟨(i 0).val / 5000, hq⟩
  have d0' : win0_3.index ⟨(i 0).val / 5000, hq⟩ (0 : Fin 2) = (i 0).val / 5000 := d0
  refine ⟨⟨(i 0).val / 5000, hq⟩, flush0_3 _, ?_⟩
  rw [mem_blk]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    omega
  | ⟨1, _⟩ =>
    show win0_3.index ⟨(i 0).val / 5000, hq⟩ (1 : Fin 2) * 128 ≤ (i 1).val
      ∧ (i 1).val < win0_3.index ⟨(i 0).val / 5000, hq⟩ (1 : Fin 2) * 128 + 128
    omega

/-- THE FIRST KERNEL'S ARRAY after its run: the dense rectified layer of the three arrays it found. -/
theorem value (c : Dev nD) :
    (dat0 V c).arrAt 3 cfg0.N = Cert.Rgat.denseRelu (V c main_arg0) (V c main_arg3) (V c main_v0) :=
  (dat0 V c).arrAt_eq_of_cover 3 _ (fun t _ => flushed_eq V c t) cover

end Cert.Rgat.InputLayer

end
-- ==== Proof.LibScaledRows.lean ====
/-
  A dense layer whose input rows are first scaled by a per-row factor, computed in blocks of rows, at the ideal values.

  The layer is  out (r, c) = max (∑ k, (s r · p (r, k)) · w (k, c) + b c, z):  each row of the input p is multiplied by
  its own factor s r (a one-column matrix stretched over the row), the scaled rows are multiplied by a weight matrix,
  a one-row bias is added to every row and the result is cut off below at a constant.  A block of R consecutive rows
  of the output depends only on the same rows of p and of s and on the whole small operands.  The lemmas say: that
  block computation — with a change of float format in front of the product, which is the identity on extended
  reals — read at an entry y of the block, is the whole-array host computation read at the entry of the array where
  y sits.  Extents are symbolic; the embeddings of block entries into array entries are abstract maps with the
  index equations a row block satisfies.
-/
import Idealize.ShloMosaic.PureOps.Ideal.Laws
import Idealize.ShloMosaic.Lib.ValueIdx
import Idealize.ShloMosaic.Lib.Pipeline.Value
import proofs.«111703_j26723286515871_1_alg».proof.Proof.LibRowBlocks

noncomputable section

namespace Cert.Bridge

open Idealize.ShloMosaic Idealize.ShloMosaic.ValueIdx Cert.Lib.PlainDot
open scoped BigOperators

variable {R N K C : Nat}

/-- Entry (r, 0) of a one-column matrix, for the row r of the entry `j`. -/
abbrev colZero {A B : Nat} (j : (⟨2, ![A, B]⟩ : Shape).Idx) : (⟨2, ![A, 1]⟩ : Shape).Idx := fun a => match a with
  | ⟨0, _⟩ => ⟨(j 0).val, (j 0).isLt⟩
  | ⟨1, _⟩ => ⟨0, Nat.one_pos⟩

/-- A one-column matrix stretched over K columns, read at an entry: the column's entry in that row. -/
theorem stretchCol_apply {φ : FTy} (v : FVec Ideal ⟨2, ![R, 1]⟩ φ)
    (h : (⟨2, ![R, 1]⟩ : Shape).Broadcasts ⟨2, ![R, K]⟩) (y : (⟨2, ![R, K]⟩ : Shape).Idx) :
    broadcastTo ⟨2, ![R, K]⟩ v h y = v (colZero y) := by
  refine broadcastTo_apply v h y (colZero y) (fun a => ?_)
  match a with
  | ⟨0, _⟩ =>
    show (y 0).val = if R = 1 then 0 else (y 0).val
    have hlt : (y 0).val < R := (y 0).isLt
    split_ifs with hR
    · omega
    · rfl
  | ⟨1, _⟩ => exact (if_pos rfl).symm

/-- The host's stretch of a one-column matrix over K columns, read at an entry. -/
theorem hostStretchCol_apply {φ : FTy} (v : FVec Ideal ⟨2, ![N, 1]⟩ φ)
    (h : (⟨2, ![N, 1]⟩ : Shape).BroadcastsInDim ⟨2, ![N, K]⟩ ![0, 1]) (i : (⟨2, ![N, K]⟩ : Shape).Idx) :
    broadcastInDim ⟨2, ![N, K]⟩ ![0, 1] h v i = v (colZero i) := by
  refine broadcastInDim_apply ![0, 1] h v i (colZero i) (fun a => ?_)
  match a with
  | ⟨0, _⟩ =>
    show (i 0).val = if N = 1 then 0 else (i 0).val
    have hlt : (i 0).val < N := (i 0).isLt
    split_ifs with hN
    · omega
    · rfl
  | ⟨1, _⟩ => exact (if_pos rfl).symm

/-- THE SCALED ROWS of a block: every row of the block times its own factor is the same rows of the whole array
    times their factors. -/
theorem scaledRows_block {φ : FTy} (S : FVec Ideal ⟨2, ![N, 1]⟩ φ) (P : FVec Ideal ⟨2, ![N, K]⟩ φ)
    (s : FVec Ideal ⟨2, ![R, 1]⟩ φ) (p : FVec Ideal ⟨2, ![R, K]⟩ φ)
    (ec : (⟨2, ![R, 1]⟩ : Shape).Idx → (⟨2, ![N, 1]⟩ : Shape).Idx)
    (e0 : (⟨2, ![R, K]⟩ : Shape).Idx → (⟨2, ![N, K]⟩ : Shape).Idx)
    (hs : ∀ j, s j = S (ec j)) (hp : ∀ j, p j = P (e0 j)) (hc : ∀ j, ec (colZero j) = colZero (e0 j))
    (hb : (⟨2, ![R, 1]⟩ : Shape).Broadcasts ⟨2, ![R, K]⟩)
    (hB : (⟨2, ![N, 1]⟩ : Shape).BroadcastsInDim ⟨2, ![N, K]⟩ ![0, 1])
    (j : (⟨2, ![R, K]⟩ : Shape).Idx) :
    mulf (broadcastTo ⟨2, ![R, K]⟩ s hb) p j = mulf (broadcastInDim ⟨2, ![N, K]⟩ ![0, 1] hB S) P (e0 j) := by
  rw [mulf_apply, mulf_apply, stretchCol_apply, hostStretchCol_apply, hs, hp, hc]

/-- The whole-array layer as the host writes it: rows scaled, product, bias row stretched over the rows, maximum
    with a constant. -/
def scaledDense (hS : (⟨2, ![N, 1]⟩ : Shape).BroadcastsInDim ⟨2, ![N, K]⟩ ![0, 1])
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (S : FVec Ideal ⟨2, ![N, 1]⟩ .f32) (P : FVec Ideal ⟨2, ![N, K]⟩ .f32) (W : FVec Ideal ⟨2, ![K, C]⟩ .f32)
    (B : FVec Ideal ⟨2, ![1, C]⟩ .f32) : FVec Ideal ⟨2, ![N, C]⟩ .f32 :=
  maximumf (addf (Host.dotGeneral (DotDims.plain N K C) none (mulf (broadcastInDim ⟨2, ![N, K]⟩ ![0, 1] hS S) P) W)
      (broadcastInDim ⟨2, ![N, C]⟩ ![0, 1] hB B))
    (broadcastInDim ⟨2, ![N, C]⟩ ![] hZ (constant (F := Ideal) ⟨0, ![]⟩ .f32 z))

/-- THE LAYER of a row block — rows scaled, narrowed to another float format, product into a zero accumulator,
    one-row bias stretched over the rows, maximum with a constant — is the row block of the whole-array layer. -/
theorem scaledDense_block (φ₂ ψ : FTy) (hψ : ψ.bits < FTy.bits .f32)
    (d : DotDims ⟨2, ![R, K]⟩ ⟨2, ![K, C]⟩ ⟨2, ![R, C]⟩) (hd : d = DotDims.plain R K C)
    (prec : Option ContractPrecision)
    (S : FVec Ideal ⟨2, ![N, 1]⟩ .f32) (P : FVec Ideal ⟨2, ![N, K]⟩ .f32) (W : FVec Ideal ⟨2, ![K, C]⟩ .f32)
    (B : FVec Ideal ⟨2, ![1, C]⟩ .f32)
    (s : FVec Ideal ⟨2, ![R, 1]⟩ .f32) (p : FVec Ideal ⟨2, ![R, K]⟩ .f32) (x1 : FVec Ideal ⟨2, ![K, C]⟩ φ₂)
    (x2 : FVec Ideal ⟨2, ![1, C]⟩ .f32)
    (ec : (⟨2, ![R, 1]⟩ : Shape).Idx → (⟨2, ![N, 1]⟩ : Shape).Idx)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hs : ∀ j, s j = S (ec j)) (hp : ∀ j, p j = P (e0 j)) (hx1 : ∀ j, x1 j = W (e1 j)) (hx2 : ∀ j, x2 j = B (e2 j))
    (hc : ∀ j, ec (colZero j) = colZero (e0 j))
    (h0 : ∀ y k, e0 (rowIdx y k) = rowIdx (eo y) k) (h1 : ∀ y k, e1 (colIdx y k) = colIdx (eo y) k)
    (h2 : ∀ y, e2 (rowZero y) = rowZero (eo y))
    (hbs : (⟨2, ![R, 1]⟩ : Shape).Broadcasts ⟨2, ![R, K]⟩)
    (hS : (⟨2, ![N, 1]⟩ : Shape).BroadcastsInDim ⟨2, ![N, K]⟩ ![0, 1])
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec (truncf ψ (mulf (broadcastTo ⟨2, ![R, K]⟩ s hbs) p) hψ) x1
          (constant ⟨2, ![R, C]⟩ .f32 0x00000000#32)) (broadcastTo ⟨2, ![R, C]⟩ x2 hb))
        (broadcast ⟨2, ![R, C]⟩ (Scalar.ofBits (F := Ideal) .f32 z)) y
      = scaledDense hS hB hZ z S P W B (eo y) := by
  have hx0 : ∀ j, (truncf ψ (mulf (broadcastTo ⟨2, ![R, K]⟩ s hbs) p) hψ : FVec Ideal ⟨2, ![R, K]⟩ ψ) j
      = mulf (broadcastInDim ⟨2, ![N, K]⟩ ![0, 1] hS S) P (e0 j) := fun j => by
    rw [truncf_apply]
    exact scaledRows_block S P s p ec e0 hs hp hc hbs hS j
  unfold scaledDense
  rw [maximumf_apply, maximumf_apply, addf_apply, addf_apply,
    dot_block d hd (DotDims.plain N K C) rfl prec none (mulf (broadcastInDim ⟨2, ![N, K]⟩ ![0, 1] hS S) P) W
      (truncf ψ (mulf (broadcastTo ⟨2, ![R, K]⟩ s hbs) p) hψ) x1 e0 e1 eo hx0 hx1 h0 h1 y,
    stretchRow_apply, hostStretchRow_apply, hostSplat_apply, hx2, h2]
  rfl

end Cert.Bridge

end
-- ==== Proof.LibFlagMask.lean ====
/-
  A comparison flag used as a per-row mask, at the ideal values.

  A kernel forms the mask "row p's integer label equals r" from an [R, 1] column of labels: the comparison's one-bit
  result is widened to a 32-bit word, read as a signed integer into a float, and stretched over the K columns. The
  host forms it from the [N] vector of labels: the comparison's bit is read as an unsigned integer into a float, laid
  out as an [N, 1] column and stretched over the K columns. Either way an entry is the number 0 or 1, and the entry
  of a block of rows equals the entry of the whole array whenever the block's label is the array's. Extents are
  symbolic.
-/
import Idealize.ShloMosaic.PureOps.Ideal.Laws
import Idealize.ShloMosaic.Lib.ValueIdx
import Idealize.ShloMosaic.Lib.Pipeline.Value
import proofs.«111703_j26723286515871_1_alg».proof.Proof.LibScaledRows

noncomputable section

namespace Cert.Lib.FlagMask

open Idealize.ShloMosaic Idealize.ShloMosaic.ValueIdx Cert.Bridge

variable {R N K : Nat}

/-- The entry of a vector in the row of a matrix entry. -/
abbrev vecIdx {A B : Nat} (i : (⟨2, ![A, B]⟩ : Shape).Idx) : (⟨1, ![A]⟩ : Shape).Idx := fun a => match a with
  | ⟨0, _⟩ => ⟨(i 0).val, (i 0).isLt⟩

/-- A comparison bit widened to a word and read signed is the bit read unsigned: the number 0 or 1. -/
theorem flag_value {φ : FTy} (b : BitVec 1) :
    FloatOps.sitofp (F := Ideal) φ (b.setWidth 32) = FloatOps.uitofp (F := Ideal) φ b := by
  show (((b.setWidth 32).toInt : ℝ) : EReal) = ((b.toNat : ℝ) : EReal)
  rcases BitVec.eq_zero_or_eq_one b with h | h <;> subst h
  · have e1 : ((0#1).setWidth 32).toInt = 0 := by decide
    have e2 : (0#1).toNat = 0 := by decide
    rw [e1, e2]; simp
  · have e1 : ((1#1).setWidth 32).toInt = 1 := by decide
    have e2 : (1#1).toNat = 1 := by decide
    rw [e1, e2]; simp

/-- A vector laid out as a one-column matrix by the host, read at an entry: the vector's entry in that row. -/
theorem hostColumn_apply {α : Type} (v : (⟨1, ![N]⟩ : Shape).Idx → α)
    (h : (⟨1, ![N]⟩ : Shape).BroadcastsInDim ⟨2, ![N, 1]⟩ ![0]) (j : (⟨2, ![N, 1]⟩ : Shape).Idx) :
    broadcastInDim ⟨2, ![N, 1]⟩ ![0] h v j = v (vecIdx j) := by
  refine broadcastInDim_apply ![0] h v j (vecIdx j) (fun a => ?_)
  match a with
  | ⟨0, _⟩ =>
    show (j 0).val = if N = 1 then 0 else (j 0).val
    have hlt : (j 0).val < N := (j 0).isLt
    split_ifs with hN
    · omega
    · rfl

/-- THE MASK of a block of rows, read at an entry, is the host's mask at the entry's place — given that the block's
    label in that row is the array's label there. -/
theorem mask_entry {φ : FTy} (r : BitVec 32) (et : IVec ⟨2, ![R, 1]⟩ 32) (ET : IVec ⟨1, ![N]⟩ 32)
    (y : (⟨2, ![R, K]⟩ : Shape).Idx) (i : (⟨2, ![N, K]⟩ : Shape).Idx) (h : et (colZero y) = ET (vecIdx i))
    (hw : 1 < 32) (hb : (⟨2, ![R, 1]⟩ : Shape).Broadcasts ⟨2, ![R, K]⟩)
    (hB : (⟨2, ![N, 1]⟩ : Shape).BroadcastsInDim ⟨2, ![N, K]⟩ ![0, 1])
    (hC : (⟨1, ![N]⟩ : Shape).BroadcastsInDim ⟨2, ![N, 1]⟩ ![0])
    (hZ : (⟨0, ![]⟩ : Shape).BroadcastsInDim ⟨1, ![N]⟩ ![]) :
    broadcastTo ⟨2, ![R, K]⟩ (sitofp (F := Ideal) φ (extui 32 (cmpi .eq et (broadcast ⟨2, ![R, 1]⟩ r)) hw)) hb y
      = broadcastInDim ⟨2, ![N, K]⟩ ![0, 1] hB (broadcastInDim ⟨2, ![N, 1]⟩ ![0] hC
          (uitofp (F := Ideal) φ (cmpi .eq ET (broadcastInDim ⟨1, ![N]⟩ ![] hZ (constantI ⟨0, ![]⟩ 32 r))))) i := by
  rw [stretchCol_apply, hostStretchCol_apply, hostColumn_apply]
  show FloatOps.sitofp (F := Ideal) φ ((IntOp.cmpi .eq (et (colZero y)) r).setWidth 32)
    = FloatOps.uitofp (F := Ideal) φ (IntOp.cmpi .eq (ET (vecIdx i))
        (broadcastInDim ⟨1, ![N]⟩ ![] hZ (constantI ⟨0, ![]⟩ 32 r) (vecIdx i)))
  rw [flag_value, h, broadcastInDim_apply ![] hZ (constantI ⟨0, ![]⟩ 32 r) (vecIdx i) ix0 (fun a => a.elim0)]
  rfl

end Cert.Lib.FlagMask

end
-- ==== Proof.LibSliceLoad.lean ====
/-
  Loading a sub-box through a unit-stride rectangle is slicing.

  A kernel that reads rows o … o + n − 1 of a buffer (and likewise along every axis) through a rectangle of stride
  one, and a host program that takes the strided slice of the same array at the same offsets, read the same entries:
  entry j of either is the array's entry o + j, axis by axis. Any rank, any element type.
-/
import Idealize.ShloMosaic.Lib.Pipeline.FrameBody
import Idealize.ShloMosaic.PureOps.ShapeOps

noncomputable section

namespace Cert.Lib.SliceLoad

open Idealize.ShloMosaic

/-- The load of the box of extents `sz` at offsets `off` is the strided slice at those offsets. -/
theorem ld_unit_eq_slice {s : Shape} {α : Type} (sz : Fin s.rank → Nat) (off : Fin s.rank → Nat)
    (X : s.Idx → α) (inb : ∀ a, off a + sz a ≤ s.size a) (h : s.Slices off ⟨s.rank, sz⟩) :
    (fun x => X ((Rect.unit (s := s) off sz inb).idx x)) = extractStridedSlice ⟨s.rank, sz⟩ off X h := by
  funext j
  show X _ = X _
  refine congrArg X (funext fun a => Fin.ext ?_)
  show off a + 1 * (j a).val = off a + (j a).val
  omega

end Cert.Lib.SliceLoad

end
-- ==== Proof.Messages.lean ====
/-
  The second kernel: msg = Σ_r [edge type = r] · (h_src · W_rel[r] + b_rel[r]), 160 blocks of 4000 edges.

  Grid point t reads rows 4000·t … 4000·t + 3999 of the gathered node rows h_src and of the edge-type column, and the
  whole stacks of six weight matrices and six bias rows; it writes the same rows of msg. For each relation r the body
  takes slab r of the weights and row r of the biases, multiplies the block by the slab, adds the bias row to every
  row, multiplies every row by its own 0/1 flag "the edge's type is r", and adds the result to the running sum, which
  starts from zero: the reference's six steps in the same order. The flag is the comparison bit widened to a 32-bit
  word and read signed on the kernel's side, read unsigned as a bit on the host's: the number 0 or 1 either way.
  Each step acts row by row, so the block written is the block of the whole-array sum, and the blocks tile msg.
-/
import proofs.«111703_j26723286515871_1_alg».proof.Proof.Gen.KernelIdeal.Frame
import proofs.«111703_j26723286515871_1_alg».proof.Proof.HostTerms
import proofs.«111703_j26723286515871_1_alg».proof.Proof.LibTwoLayerRows
import proofs.«111703_j26723286515871_1_alg».proof.Proof.LibScaledRows
import proofs.«111703_j26723286515871_1_alg».proof.Proof.LibFlagMask
import proofs.«111703_j26723286515871_1_alg».proof.Proof.LibSliceLoad
import Idealize.ShloMosaic.Lib.Pipeline.Value
import Idealize.ShloMosaic.Lib.ValueIdx

set_option maxRecDepth 16384

noncomputable section

namespace Cert.Rgat.Messages

open Idealize.ShloMosaic Idealize.ShloMosaic.ValueIdx Idealize.ShloMosaic.TcCoe Idealize.SL.Sem
open Idealize.ShloMosaic.Pipeline (Dat)
open Cert.KernelIdeal Cert.KernelIdeal.Gen
open Cert.Lib.PlainDot Cert.Bridge Cert.Lib.TwoLayerRows Cert.Lib.FlagMask

theorem origin2 : (![0, 0] : Fin 2 → Nat) = fun _ => 0 := funext fun a => by fin_cases a <;> rfl

/-! ## One relation's share -/

/-- The kernel's form of relation r's share on one block: the rows' flags times (block · slab + bias row). -/
def share (r : BitVec 32) (hbf : FVec Ideal S4000x128 .bf16) (et : IVec S4000x1 32)
    (slab : Vec Ideal S1x128x128 .f32) (brow : Vec Ideal S1x128 .f32) : FVec Ideal S4000x128 .f32 :=
  mulf (broadcastTo S4000x128 (sitofp .f32 (extui 32 (cmpi .eq et (broadcast S4000x1 r)) natLt_1_32)) broadcasts_S4000x1_S4000x128)
    (addf (matmul dot_S4000x128_S128x128_S4000x128_1_0_0_1_n_n none hbf
        (truncf .bf16 (shapeCast S128x128 slab shapeCasts_S1x128x128_S128x128) bitsLt_bf16_f32)
        (constant S4000x128 .f32 0x00000000#32))
      (broadcastTo S4000x128 (shapeCast S1x128 (shapeCast S128 brow shapeCasts_S1x128_S128) shapeCasts_S128_S1x128)
        broadcasts_S1x128_S4000x128))

/-- The body's stored value is the six shares added in order onto zeros. -/
theorem payload_eq (x0 : Vec Ideal S4000x128 .f32) (x1 : Vec Ideal S4000x1 .i32)
    (s0 : Vec Ideal S1x128x128 .f32) (b0 : Vec Ideal S1x128 .f32) (s1 : Vec Ideal S1x128x128 .f32) (b1 : Vec Ideal S1x128 .f32)
    (s2 : Vec Ideal S1x128x128 .f32) (b2 : Vec Ideal S1x128 .f32) (s3 : Vec Ideal S1x128x128 .f32) (b3 : Vec Ideal S1x128 .f32)
    (s4 : Vec Ideal S1x128x128 .f32) (b4 : Vec Ideal S1x128 .f32) (s5 : Vec Ideal S1x128x128 .f32) (b5 : Vec Ideal S1x128 .f32) :
    k1_pay1 (k1_pay2 x0) (k1_pay3 x1)
        (k1_pay5 (k1_pay2 x0) (k1_pay3 x1) (k1_pay4 x0 x1 s0 b0 s1 b1) s2 b2 s3 b3)
        (k1_pay6 (k1_pay2 x0) s4 b4) 4#32 s5 b5
      = addf (addf (addf (addf (addf (addf (broadcast S4000x128 (Scalar.ofBits (F := Ideal) .f32 0x00000000#32))
          (share 0#32 (k1_pay2 x0) (k1_pay3 x1) s0 b0))
          (share 1#32 (k1_pay2 x0) (k1_pay3 x1) s1 b1))
          (share 2#32 (k1_pay2 x0) (k1_pay3 x1) s2 b2))
          (share 3#32 (k1_pay2 x0) (k1_pay3 x1) s3 b3))
          (share 4#32 (k1_pay2 x0) (k1_pay3 x1) s4 b4))
          (share 5#32 (k1_pay2 x0) (k1_pay3 x1) s5 b5) := rfl

/-- One relation's share on a block, read at an entry, is the whole-array share at the entry's place in msg. -/
theorem share_entry (r : BitVec 32) (k3 : Fin 3 → Nat) (h3 : S6x128x128.Slices k3 S1x128x128)
    (k2 : Fin 2 → Nat) (h2 : S6x128.Slices k2 S1x128)
    (HS : FVec Ideal S640000x128 .f32) (ET : IVec S640000 32) (WR : FVec Ideal S6x128x128 .f32) (BR : FVec Ideal S6x128 .f32)
    (hbf : FVec Ideal S4000x128 .bf16) (et : IVec S4000x1 32) (slab : Vec Ideal S1x128x128 .f32) (brow : Vec Ideal S1x128 .f32)
    (e : S4000x128.Idx → S640000x128.Idx) (o : Nat) (he : RowEmb e o)
    (hh : ∀ j, hbf j = HS (e j)) (het : ∀ y : S4000x128.Idx, et (colZero y) = ET (vecIdx (e y)))
    (hslab : slab = extractStridedSlice S1x128x128 k3 WR h3) (hbrow : brow = extractStridedSlice S1x128 k2 BR h2)
    (y : S4000x128.Idx) :
    share r hbf et slab brow y = Cert.Rgat.relTerm r k3 h3 k2 h2 HS ET WR BR (e y) := by
  subst hslab hbrow
  unfold share Cert.Rgat.relTerm
  rw [mulf_apply, mulf_apply, mask_entry r et ET y (e y) (het y)]
  refine congrArg _ ?_
  exact output_block .bf16 .bf16 _ rfl _ rfl none none HS _ _ hbf _ _
    e id id e hh (fun j => rfl)
    (fun j => congrFun (reshapeRow_eq _ _ _) j)
    (fun y k => he.rowIdx_eq he y k) (fun y k => he.colIdx_eq y k) (fun y => he.rowZero_eq y)
    _ _ y

/-- The six shares added onto zeros on a block, read at an entry, are the whole-array messages at the entry's
    place. -/
theorem block_entry (HS : FVec Ideal S640000x128 .f32) (ET : IVec S640000 32) (WR : FVec Ideal S6x128x128 .f32)
    (BR : FVec Ideal S6x128 .f32) (x0 : Vec Ideal S4000x128 .f32) (x1 : Vec Ideal S4000x1 .i32)
    (s0 : Vec Ideal S1x128x128 .f32) (b0 : Vec Ideal S1x128 .f32) (s1 : Vec Ideal S1x128x128 .f32) (b1 : Vec Ideal S1x128 .f32)
    (s2 : Vec Ideal S1x128x128 .f32) (b2 : Vec Ideal S1x128 .f32) (s3 : Vec Ideal S1x128x128 .f32) (b3 : Vec Ideal S1x128 .f32)
    (s4 : Vec Ideal S1x128x128 .f32) (b4 : Vec Ideal S1x128 .f32) (s5 : Vec Ideal S1x128x128 .f32) (b5 : Vec Ideal S1x128 .f32)
    (e : S4000x128.Idx → S640000x128.Idx) (o : Nat) (he : RowEmb e o)
    (hx0 : ∀ j, x0 j = HS (e j)) (hx1 : ∀ y : S4000x128.Idx, x1 (colZero y) = ET (vecIdx (e y)))
    (hs0 : s0 = extractStridedSlice S1x128x128 ![0, 0, 0] WR Cert.ReferenceIdeal.Gen.slices_S6x128x128_S1x128x128_0_0_0)
    (hb0 : b0 = extractStridedSlice S1x128 ![0, 0] BR Cert.ReferenceIdeal.Gen.slices_S6x128_S1x128_0_0)
    (hs1 : s1 = extractStridedSlice S1x128x128 ![1, 0, 0] WR Cert.ReferenceIdeal.Gen.slices_S6x128x128_S1x128x128_1_0_0)
    (hb1 : b1 = extractStridedSlice S1x128 ![1, 0] BR Cert.ReferenceIdeal.Gen.slices_S6x128_S1x128_1_0)
    (hs2 : s2 = extractStridedSlice S1x128x128 ![2, 0, 0] WR Cert.ReferenceIdeal.Gen.slices_S6x128x128_S1x128x128_2_0_0)
    (hb2 : b2 = extractStridedSlice S1x128 ![2, 0] BR Cert.ReferenceIdeal.Gen.slices_S6x128_S1x128_2_0)
    (hs3 : s3 = extractStridedSlice S1x128x128 ![3, 0, 0] WR Cert.ReferenceIdeal.Gen.slices_S6x128x128_S1x128x128_3_0_0)
    (hb3 : b3 = extractStridedSlice S1x128 ![3, 0] BR Cert.ReferenceIdeal.Gen.slices_S6x128_S1x128_3_0)
    (hs4 : s4 = extractStridedSlice S1x128x128 ![4, 0, 0] WR Cert.ReferenceIdeal.Gen.slices_S6x128x128_S1x128x128_4_0_0)
    (hb4 : b4 = extractStridedSlice S1x128 ![4, 0] BR Cert.ReferenceIdeal.Gen.slices_S6x128_S1x128_4_0)
    (hs5 : s5 = extractStridedSlice S1x128x128 ![5, 0, 0] WR Cert.ReferenceIdeal.Gen.slices_S6x128x128_S1x128x128_5_0_0)
    (hb5 : b5 = extractStridedSlice S1x128 ![5, 0] BR Cert.ReferenceIdeal.Gen.slices_S6x128_S1x128_5_0)
    (y : S4000x128.Idx) :
    k1_pay1 (k1_pay2 x0) (k1_pay3 x1)
        (k1_pay5 (k1_pay2 x0) (k1_pay3 x1) (k1_pay4 x0 x1 s0 b0 s1 b1) s2 b2 s3 b3)
        (k1_pay6 (k1_pay2 x0) s4 b4) 4#32 s5 b5 y
      = Cert.Rgat.messages HS ET WR BR (e y) := by
  have hh : ∀ j, k1_pay2 x0 j = HS (e j) := fun j => by
    unfold k1_pay2
    rw [truncf_apply, shapeCast_self]
    exact hx0 j
  have het : ∀ y : S4000x128.Idx, k1_pay3 x1 (colZero y) = ET (vecIdx (e y)) := fun y => by
    unfold k1_pay3
    rw [shapeCast_self]
    exact hx1 y
  rw [payload_eq]
  unfold Cert.Rgat.messages
  rw [addf_apply, addf_apply, addf_apply, addf_apply, addf_apply, addf_apply,
    addf_apply, addf_apply, addf_apply, addf_apply, addf_apply, addf_apply,
    share_entry 0#32 _ _ _ _ HS ET WR BR _ _ s0 b0 e o he hh het hs0 hb0 y,
    share_entry 1#32 _ _ _ _ HS ET WR BR _ _ s1 b1 e o he hh het hs1 hb1 y,
    share_entry 2#32 _ _ _ _ HS ET WR BR _ _ s2 b2 e o he hh het hs2 hb2 y,
    share_entry 3#32 _ _ _ _ HS ET WR BR _ _ s3 b3 e o he hh het hs3 hb3 y,
    share_entry 4#32 _ _ _ _ HS ET WR BR _ _ s4 b4 e o he hh het hs4 hb4 y,
    share_entry 5#32 _ _ _ _ HS ET WR BR _ _ s5 b5 e o he hh het hs5 hb5 y,
    hostSplat_apply]
  rfl

/-! ## From blocks to the array -/

/-- Loading one slab of the stack of weight matrices is slicing the stack. -/
theorem ld_slab (X : Vec Ideal S6x128x128 .f32) (off : Fin 3 → Nat)
    (inb : ∀ a, off a + S1x128x128.size a ≤ S6x128x128.size a) (h : S6x128x128.Slices off S1x128x128) :
    View.ld X (Rect.unit (s := S6x128x128) off S1x128x128.size inb) = extractStridedSlice S1x128x128 off X h :=
  Cert.Lib.SliceLoad.ld_unit_eq_slice (s := S6x128x128) S1x128x128.size off X inb h

/-- Loading one row of the stack of bias rows is slicing the stack. -/
theorem ld_row (X : Vec Ideal S6x128 .f32) (off : Fin 2 → Nat)
    (inb : ∀ a, off a + S1x128.size a ≤ S6x128.size a) (h : S6x128.Slices off S1x128) :
    View.ld X (Rect.unit (s := S6x128) off S1x128.size inb) = extractStridedSlice S1x128 off X h :=
  Cert.Lib.SliceLoad.ld_unit_eq_slice (s := S6x128) S1x128.size off X inb h

/-- The printed index maps over the grid: the row-blocked windows sit at block (t, 0), the whole ones at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The whole input windows' blocks are the arrays themselves. -/
theorem whole2 (c : Dev nD) (t : Fin cfg1.N) : iblk1 V c 2 t = V c main_arg5 := by
  obtain ⟨_, _, _, _, p0, p1, p2, _⟩ := idx_facts t
  funext j
  show V c main_arg5 (((cfg1.win 2).blk t).view.emb j) = V c main_arg5 j
  refine congrArg (V c main_arg5) (funext fun a => Fin.ext ?_)
  match a with
  | ⟨0, _⟩ => show win1_2.index t (0 : Fin 3) * 6 + 1 * (j 0).val = (j 0).val; omega
  | ⟨1, _⟩ => show win1_2.index t (1 : Fin 3) * 128 + 1 * (j 1).val = (j 1).val; omega
  | ⟨2, _⟩ => show win1_2.index t (2 : Fin 3) * 128 + 1 * (j 2).val = (j 2).val; omega
theorem whole3 (c : Dev nD) (t : Fin cfg1.N) : iblk1 V c 3 t = V c main_arg6 := by
  obtain ⟨_, _, _, _, _, _, _, p0, p1, _⟩ := idx_facts t
  funext j
  show V c main_arg6 (((cfg1.win 3).blk t).view.emb j) = V c main_arg6 j
  refine congrArg (V c main_arg6) (funext fun a => Fin.ext ?_)
  match a with
  | ⟨0, _⟩ => show win1_3.index t (0 : Fin 2) * 6 + 1 * (j 0).val = (j 0).val; omega
  | ⟨1, _⟩ => show win1_3.index t (1 : Fin 2) * 128 + 1 * (j 1).val = (j 1).val; omega

/-- The rows of h_src that point t reads are the rows of msg it writes. -/
theorem rows0 (c : Dev nD) (t : Fin cfg1.N) (j : S4000x128.Idx) :
    iblk1 V c 0 t j = V c main_v12 (((cfg1.win 4).blk t).view.emb j) := by
  obtain ⟨a0, a1, _, _, _, _, _, _, _, q0, q1⟩ := idx_facts t
  show V c main_v12 (((cfg1.win 0).blk t).view.emb j) = _
  refine congrArg (V c main_v12) (funext fun a => Fin.ext ?_)
  match a with
  | ⟨0, _⟩ => show win1_0.index t (0 : Fin 2) * 4000 + 1 * (j 0).val = win1_4.index t (0 : Fin 2) * 4000 + 1 * (j 0).val; omega
  | ⟨1, _⟩ => show win1_0.index t (1 : Fin 2) * 128 + 1 * (j 1).val = win1_4.index t (1 : Fin 2) * 128 + 1 * (j 1).val; omega

/-- The edge types that point t reads are those of the rows of msg it writes. -/
theorem rows1 (c : Dev nD) (t : Fin cfg1.N) (y : S4000x128.Idx) :
    iblk1 V c 1 t (colZero y) = V c main_v13 (colZero (((cfg1.win 4).blk t).view.emb y)) := by
  obtain ⟨_, _, a0, a1, _, _, _, _, _, q0, q1⟩ := idx_facts t
  show V c main_v13 (((cfg1.win 1).blk t).view.emb (colZero y)) = _
  refine congrArg (V c main_v13) (funext fun a => Fin.ext ?_)
  match a with
  | ⟨0, _⟩ => show win1_1.index t (0 : Fin 2) * 4000 + 1 * (y 0).val = win1_4.index t (0 : Fin 2) * 4000 + 1 * (y 0).val; omega
  | ⟨1, _⟩ => show win1_1.index t (1 : Fin 2) * 1 + 1 * 0 = 0; omega

/-- The block of msg that point t writes is rows 4000·t … of the array, columns kept. -/
theorem emb4 (t : Fin cfg1.N) : RowEmb (R := 4000) (N := 640000) (C := 128) (((cfg1.win 4).blk t).view.emb) (t.val * 4000) := by
  obtain ⟨_, _, _, _, _, _, _, _, _, q0, q1⟩ := idx_facts t
  exact ⟨fun j => by show win1_4.index t (0 : Fin 2) * 4000 + 1 * (j 0).val = t.val * 4000 + (j 0).val; omega,
    fun j => by show win1_4.index t (1 : Fin 2) * 128 + 1 * (j 1).val = (j 1).val; omega⟩

/-- What point t writes back is block t of the whole-array messages of the arrays the kernel found, the edge types
    given as the vector ET whose column form the kernel found. -/
theorem flushed_eq (c : Dev nD) (ET : IVec S640000 32)
    (hcol : ∀ i : S640000x128.Idx, V c main_v13 (colZero i) = ET (vecIdx i)) (t : Fin cfg1.N) :
    (dat1 V c).flushed 4 t = ((cfg1.win 4).blk t).view.read (Elt Ideal)
      (Cert.Rgat.messages (V c main_v12) ET (V c main_arg5) (V c main_arg6)) := by
  show (cfg1.win 4).cut (grid1.coords t) ((dat1 V c).after 4 t) = _
  rw [after1_4]
  unfold out1_4
  rw [View.canon_unit_zero origin2]
  simp only [View.ld_unit_zero (S := S4000x128) origin2, View.ld_unit_zero (S := S4000x1) origin2]
  rw [whole2 V c t, whole3 V c t]
  funext y
  exact block_entry (V c main_v12) ET (V c main_arg5) (V c main_arg6) (iblk1 V c 0 t) (iblk1 V c 1 t)
    _ _ _ _ _ _ _ _ _ _ _ _
    (((cfg1.win 4).blk t).view.emb) (t.val * 4000) (emb4 t) (rows0 V c t)
    (fun y => (rows1 V c t y).trans (hcol _))
    (ld_slab _ _ _ _) (ld_row _ _ _ _) (ld_slab _ _ _ _) (ld_row _ _ _ _) (ld_slab _ _ _ _) (ld_row _ _ _ _)
    (ld_slab _ _ _ _) (ld_row _ _ _ _) (ld_slab _ _ _ _) (ld_row _ _ _ _) (ld_slab _ _ _ _) (ld_row _ _ _ _) y

/-- An index of msg is in point t's block iff its row is among the block's 4000. -/
theorem mem_blk (t : Fin cfg1.N) (i : S640000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v14).slice (win1_4.rect t)).set ↔ _
  rw [View.set_slice_whole, Rect.mem_set_unit]
  exact Iff.rfl

/-- The 160 blocks cover msg: row r is in the block of point r / 4000. -/
theorem cover (i : S640000x128.Idx) :
    ∃ t : Fin cfg1.N, (cfg1.win 4).flush t = true ∧ i ∈ ((cfg1.win 4).blk t).view.set := by
  have hi0 : (i 0).val < 640000 := (i 0).isLt
  have hi1 : (i 1).val < 128 := (i 1).isLt
  have hq : (i 0).val / 4000 < cfg1.N := by rw [show cfg1.N = 160 from N_1]; omega
  obtain ⟨_, _, _, _, _, _, _, _, _, d0, d1⟩ := idx_facts ⟨(i 0).val / 4000, hq⟩
  have d0' : win1_4.index ⟨(i 0).val / 4000, hq⟩ (0 : Fin 2) = (i 0).val / 4000 := d0
  refine ⟨⟨(i 0).val / 4000, hq⟩, flush1_4 _, ?_⟩
  rw [mem_blk]
  intro a
  match a with
  | ⟨0, _⟩ =>
    show win1_4.index ⟨(i 0).val / 4000, hq⟩ (0 : Fin 2) * 4000 ≤ (i 0).val
      ∧ (i 0).val < win1_4.index ⟨(i 0).val / 4000, hq⟩ (0 : Fin 2) * 4000 + 4000
    omega
  | ⟨1, _⟩ =>
    show win1_4.index ⟨(i 0).val / 4000, hq⟩ (1 : Fin 2) * 128 ≤ (i 1).val
      ∧ (i 1).val < win1_4.index ⟨(i 0).val / 4000, hq⟩ (1 : Fin 2) * 128 + 128
    omega

/-- THE SECOND KERNEL'S ARRAY after its run: the messages of the arrays it found. -/
theorem value (c : Dev nD) (ET : IVec S640000 32)
    (hcol : ∀ i : S640000x128.Idx, V c main_v13 (colZero i) = ET (vecIdx i)) :
    (dat1 V c).arrAt 4 cfg1.N = Cert.Rgat.messages (V c main_v12) ET (V c main_arg5) (V c main_arg6) :=
  (dat1 V c).arrAt_eq_of_cover 4 _ (fun t _ => flushed_eq V c ET hcol t) cover

end Cert.Rgat.Messages

end
-- ==== Proof.OutputLayers.lean ====
/-
  The third kernel: emb = max((h + a) · W_o1 + b_o1, 0) · W_o2 + b_o2 and pred = emb · W_p + b_p, twenty blocks of
  5000 rows.

  Grid point t reads rows 5000·t … 5000·t + 4999 of h and of the normalised aggregate a, and the whole of the three
  weight matrices and three one-row biases; it writes the same rows of emb and of pred. Every operation acts row by
  row (a row of a product needs only that row of the left factor), so each written block is the block of the
  whole-array computation; the narrowing in front of each product is the identity on the extended reals. The blocks
  tile both arrays.
-/
import proofs.«111703_j26723286515871_1_alg».proof.Proof.Gen.KernelIdeal.Frame
import proofs.«111703_j26723286515871_1_alg».proof.Proof.HostTerms
import proofs.«111703_j26723286515871_1_alg».proof.Proof.LibTwoLayerRows
import Idealize.ShloMosaic.Lib.Pipeline.Value
import Idealize.ShloMosaic.Lib.ValueIdx

set_option maxRecDepth 16384

noncomputable section

namespace Cert.Rgat.OutputLayers

open Idealize.ShloMosaic Idealize.ShloMosaic.ValueIdx Idealize.ShloMosaic.TcCoe Idealize.SL.Sem
open Idealize.ShloMosaic.Pipeline (Dat)
open Cert.KernelIdeal Cert.KernelIdeal.Gen
open Cert.Lib.PlainDot Cert.Bridge Cert.Lib.TwoLayerRows

theorem origin2 : (![0, 0] : Fin 2 → Nat) = fun _ => 0 := funext fun a => by fin_cases a <;> rfl

/-- The embeddings' payload with the casts of an array to its own shape removed. -/
theorem emb_payload (x0 x1 : Vec Ideal S5000x128 .f32) (x2 : Vec Ideal S128x128 .f32) (x3 : Vec Ideal S1x128 .f32)
    (x4 : Vec Ideal S128x128 .f32) (x5 : Vec Ideal S1x128 .f32) :
    k2_pay1 x0 x1 x2 x3 x4 x5
      = addf (matmul dot_S5000x128_S128x128_S5000x128_1_0_0_1_n_n none
          (truncf .bf16 (maximumf (addf (matmul dot_S5000x128_S128x128_S5000x128_1_0_0_1_n_n none
              (truncf .bf16 (addf x0 x1) bitsLt_bf16_f32) (truncf .bf16 x2 bitsLt_bf16_f32) (constant S5000x128 .f32 0x00000000#32))
            (broadcastTo S5000x128 x3 broadcasts_S1x128_S5000x128))
            (broadcast S5000x128 (Scalar.ofBits (F := Ideal) .f32 0x00000000#32))) bitsLt_bf16_f32)
          (truncf .bf16 x4 bitsLt_bf16_f32) (constant S5000x128 .f32 0x00000000#32))
        (broadcastTo S5000x128 x5 broadcasts_S1x128_S5000x128) := by
  unfold k2_pay1
  simp only [shapeCast_self]

/-- One block of emb: what the body stores, read at an entry, is the two whole-array layers at the entry's place. -/
theorem emb_entry (X A : FVec Ideal S100000x128 .f32) (W1 : FVec Ideal S128x128 .f32) (B1 : FVec Ideal S1x128 .f32)
    (W2 : FVec Ideal S128x128 .f32) (B2 : FVec Ideal S1x128 .f32)
    (x0 x1 : Vec Ideal S5000x128 .f32) (x2 : Vec Ideal S128x128 .f32) (x3 : Vec Ideal S1x128 .f32)
    (x4 : Vec Ideal S128x128 .f32) (x5 : Vec Ideal S1x128 .f32)
    (e : S5000x128.Idx → S100000x128.Idx) (o : Nat) (he : RowEmb e o)
    (hx0 : ∀ j, x0 j = X (e j)) (hx1 : ∀ j, x1 j = A (e j))
    (hx2 : x2 = W1) (hx3 : x3 = B1) (hx4 : x4 = W2) (hx5 : x5 = B2) (y : S5000x128.Idx) :
    k2_pay1 x0 x1 x2 x3 x4 x5 y = Cert.Rgat.outLayers X A W1 B1 W2 B2 (e y) := by
  subst hx2 hx3 hx4 hx5
  rw [emb_payload]
  unfold Cert.Rgat.outLayers Cert.Rgat.denseRelu
  exact two_layers_block (ψ := .bf16) bitsLt_bf16_f32 _ rfl _ rfl _ rfl _ rfl none none X A x2 x3 x4 x5 x0 x1
    e e e o he he he hx0 hx1 _ _ _ _ _ 0x00000000#32 y

/-- One block of pred: the head applied to the block of emb is the block of the head applied to emb. -/
theorem pred_entry (X A : FVec Ideal S100000x128 .f32) (W1 : FVec Ideal S128x128 .f32) (B1 : FVec Ideal S1x128 .f32)
    (W2 : FVec Ideal S128x128 .f32) (B2 : FVec Ideal S1x128 .f32) (Wp : FVec Ideal S128x1 .f32) (Bp : FVec Ideal S1x1 .f32)
    (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x1 .f32) (x7 : Vec Ideal S1x1 .f32)
    (e : S5000x128.Idx → S100000x128.Idx) (e1 : S5000x1.Idx → S100000x1.Idx) (o : Nat) (he : RowEmb e o) (he1 : RowEmb e1 o)
    (hx0 : ∀ j, x0 j = X (e j)) (hx1 : ∀ j, x1 j = A (e j))
    (hx2 : x2 = W1) (hx3 : x3 = B1) (hx4 : x4 = W2) (hx5 : x5 = B2) (hx6 : ∀ j, x6 j = Wp j) (hx7 : ∀ j, x7 j = Bp j)
    (y : S5000x1.Idx) :
    k2_pay2 x0 x1 x2 x3 x4 x5 x6 x7 y
      = Cert.Rgat.predHead (Cert.Rgat.outLayers X A W1 B1 W2 B2) Wp Bp (e1 y) := by
  unfold k2_pay2 Cert.Rgat.predHead
  exact output_block .bf16 .bf16 _ rfl _ rfl none none (Cert.Rgat.outLayers X A W1 B1 W2 B2) Wp Bp
    (truncf .bf16 (k2_pay1 x0 x1 x2 x3 x4 x5) bitsLt_bf16_f32) (truncf .bf16 x6 bitsLt_bf16_f32)
    (shapeCast S1x1 x7 shapeCasts_S1x1_S1x1)
    e id id e1
    (fun j => (truncf_apply (k2_pay1 x0 x1 x2 x3 x4 x5) bitsLt_bf16_f32 j).trans
      (emb_entry X A W1 B1 W2 B2 x0 x1 x2 x3 x4 x5 e o he hx0 hx1 hx2 hx3 hx4 hx5 j))
    (fun j => (truncf_apply x6 bitsLt_bf16_f32 j).trans (hx6 j))
    (fun j => (congrFun (shapeCast_self x7 shapeCasts_S1x1_S1x1) j).trans (hx7 j))
    (fun y k => he.rowIdx_eq he1 y k) (fun y k => he1.colIdx_eq y k) (fun y => he1.rowZero_eq y)
    _ _ y

/-- The printed index maps over the grid: the row-blocked windows sit at block (t, 0), the whole ones at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

variable (V : (c : Dev nD) → (b : Ref sig .tc) → Buf (Elt Ideal) ((c : Thread nD τ).loc b))

/-- The whole input windows' blocks are the arrays themselves. -/
theorem whole2 (c : Dev nD) (t : Fin cfg2.N) : iblk2 V c 2 t = V c main_arg7 := by
  obtain ⟨_, _, _, _, p0, p1, _⟩ := idx_facts t
  funext j
  show V c main_arg7 (((cfg2.win 2).blk t).view.emb j) = V c main_arg7 j
  refine congrArg (V c main_arg7) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega
theorem whole3 (c : Dev nD) (t : Fin cfg2.N) : iblk2 V c 3 t = V c main_v26 := by
  obtain ⟨_, _, _, _, _, _, p0, p1, _⟩ := idx_facts t
  funext j
  show V c main_v26 (((cfg2.win 3).blk t).view.emb j) = V c main_v26 j
  refine congrArg (V c main_v26) (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega
theorem whole4 (c : Dev nD) (t : Fin cfg2.N) : iblk2 V c 4 t = V c main_arg9 := by
  obtain ⟨_, _, _, _, _, _, _, _, p0, p1, _⟩ := idx_facts t
  funext j
  show V c main_arg9 (((cfg2.win 4).blk t).view.emb j) = V c main_arg9 j
  refine congrArg (V c main_arg9) (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega
theorem whole5 (c : Dev nD) (t : Fin cfg2.N) : iblk2 V c 5 t = V c main_v27 := by
  obtain ⟨_, _, _, _, _, _, _, _, _, _, p0, p1, _⟩ := idx_facts t
  funext j
  show V c main_v27 (((cfg2.win 5).blk t).view.emb j) = V c main_v27 j
  refine congrArg (V c main_v27) (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega
theorem whole6 (c : Dev nD) (t : Fin cfg2.N) : iblk2 V c 6 t = V c main_arg11 := by
  obtain ⟨_, _, _, _, _, _, _, _, _, _, _, _, p0, p1, _⟩ := idx_facts t
  funext j
  show V c main_arg11 (((cfg2.win 6).blk t).view.emb j) = V c main_arg11 j
  refine congrArg (V c main_arg11) (funext fun a => Fin.ext ?_)
  match a with
  | ⟨0, _⟩ => show win2_6.index t (0 : Fin 2) * 128 + 1 * (j 0).val = (j 0).val; omega
  | ⟨1, _⟩ => show win2_6.index t (1 : Fin 2) * 1 + 1 * (j 1).val = (j 1).val; omega
theorem whole7 (c : Dev nD) (t : Fin cfg2.N) : iblk2 V c 7 t = V c main_v28 := by
  obtain ⟨_, _, _, _, _, _, _, _, _, _, _, _, _, _, p0, p1, _⟩ := idx_facts t
  funext j
  show V c main_v28 (((cfg2.win 7).blk t).view.emb j) = V c main_v28 j
  refine congrArg (V c main_v28) (funext fun a => Fin.ext ?_)
  match a with
  | ⟨0, _⟩ => show win2_7.index t (0 : Fin 2) * 1 + 1 * (j 0).val = (j 0).val; omega
  | ⟨1, _⟩ => show win2_7.index t (1 : Fin 2) * 1 + 1 * (j 1).val = (j 1).val; omega

/-- The rows of h and of the aggregate that point t reads are the rows it writes. -/
theorem rows0 (c : Dev nD) (t : Fin cfg2.N) (j : S5000x128.Idx) :
    iblk2 V c 0 t j = V c main_v1 (((cfg2.win 8).blk t).view.emb j) := by
  obtain ⟨a0, a1, _, _, _, _, _, _, _, _, _, _, _, _, _, _, q0, q1, _⟩ := idx_facts t
  show V c main_v1 (((cfg2.win 0).blk t).view.emb j) = _
  refine congrArg (V c main_v1) (funext fun a => Fin.ext ?_)
  match a with
  | ⟨0, _⟩ => show win2_0.index t (0 : Fin 2) * 5000 + 1 * (j 0).val = win2_8.index t (0 : Fin 2) * 5000 + 1 * (j 0).val; omega
  | ⟨1, _⟩ => show win2_0.index t (1 : Fin 2) * 128 + 1 * (j 1).val = win2_8.index t (1 : Fin 2) * 128 + 1 * (j 1).val; omega
theorem rows1 (c : Dev nD) (t : Fin cfg2.N) (j : S5000x128.Idx) :
    iblk2 V c 1 t j = V c main_v25 (((cfg2.win 8).blk t).view.emb j) := by
  obtain ⟨_, _, a0, a1, _, _, _, _, _, _, _, _, _, _, _, _, q0, q1, _⟩ := idx_facts t
  show V c main_v25 (((cfg2.win 1).blk t).view.emb j) = _
  refine congrArg (V c main_v25) (funext fun a => Fin.ext ?_)
  match a with
  | ⟨0, _⟩ => show win2_1.index t (0 : Fin 2) * 5000 + 1 * (j 0).val = win2_8.index t (0 : Fin 2) * 5000 + 1 * (j 0).val; omega
  | ⟨1, _⟩ => show win2_1.index t (1 : Fin 2) * 128 + 1 * (j 1).val = win2_8.index t (1 : Fin 2) * 128 + 1 * (j 1).val; omega

/-- The block of emb that point t writes is rows 5000·t … of the array, columns kept. -/
theorem emb8 (t : Fin cfg2.N) : RowEmb (R := 5000) (N := 100000) (C := 128) (((cfg2.win 8).blk t).view.emb) (t.val * 5000) := by
  obtain ⟨_, _, _, _, _, _, _, _, _, _, _, _, _, _, _, _, q0, q1, _⟩ := idx_facts t
  exact ⟨fun j => by show win2_8.index t (0 : Fin 2) * 5000 + 1 * (j 0).val = t.val * 5000 + (j 0).val; omega,
    fun j => by show win2_8.index t (1 : Fin 2) * 128 + 1 * (j 1).val = (j 1).val; omega⟩
/-- The block of pred that point t writes is rows 5000·t … of the one-column array. -/
theorem emb9 (t : Fin cfg2.N) : RowEmb (R := 5000) (N := 100000) (C := 1) (((cfg2.win 9).blk t).view.emb) (t.val * 5000) := by
  obtain ⟨_, _, _, _, _, _, _, _, _, _, _, _, _, _, _, _, _, _, q0, q1⟩ := idx_facts t
  exact ⟨fun j => by show win2_9.index t (0 : Fin 2) * 5000 + 1 * (j 0).val = t.val * 5000 + (j 0).val; omega,
    fun j => by show win2_9.index t (1 : Fin 2) * 1 + 1 * (j 1).val = (j 1).val; omega⟩

/-- What point t writes back to emb is block t of the two whole-array layers of the arrays the kernel found. -/
theorem flushed8_eq (c : Dev nD) (t : Fin cfg2.N) :
    (dat2 V c).flushed 8 t = ((cfg2.win 8).blk t).view.read (Elt Ideal)
      (Cert.Rgat.outLayers (V c main_v1) (V c main_v25) (V c main_arg7) (V c main_v26) (V c main_arg9) (V c main_v27)) := by
  show (cfg2.win 8).cut (grid2.coords t) ((dat2 V c).after 8 t) = _
  rw [after2_8]
  unfold out2_8
  rw [View.canon_unit_zero origin2]
  simp only [View.ld_unit_zero (S := S5000x128) origin2, View.ld_unit_zero (S := S128x128) origin2,
    View.ld_unit_zero (S := S1x128) origin2]
  funext y
  show k2_pay1 (iblk2 V c 0 t) (iblk2 V c 1 t) (iblk2 V c 2 t) (iblk2 V c 3 t) (iblk2 V c 4 t) (iblk2 V c 5 t) y
    = Cert.Rgat.outLayers (V c main_v1) (V c main_v25) (V c main_arg7) (V c main_v26) (V c main_arg9) (V c main_v27)
        (((cfg2.win 8).blk t).view.emb y)
  exact emb_entry (V c main_v1) (V c main_v25) (V c main_arg7) (V c main_v26) (V c main_arg9) (V c main_v27)
    (iblk2 V c 0 t) (iblk2 V c 1 t) (iblk2 V c 2 t) (iblk2 V c 3 t) (iblk2 V c 4 t) (iblk2 V c 5 t)
    (((cfg2.win 8).blk t).view.emb) (t.val * 5000) (emb8 t) (rows0 V c t) (rows1 V c t)
    (whole2 V c t) (whole3 V c t) (whole4 V c t) (whole5 V c t) y

/-- What point t writes back to pred is block t of the head applied to the whole-array embeddings. -/
theorem flushed9_eq (c : Dev nD) (t : Fin cfg2.N) :
    (dat2 V c).flushed 9 t = ((cfg2.win 9).blk t).view.read (Elt Ideal)
      (Cert.Rgat.predHead (Cert.Rgat.outLayers (V c main_v1) (V c main_v25) (V c main_arg7) (V c main_v26) (V c main_arg9) (V c main_v27))
        (V c main_arg11) (V c main_v28)) := by
  show (cfg2.win 9).cut (grid2.coords t) ((dat2 V c).after 9 t) = _
  rw [after2_9]
  unfold out2_9
  rw [View.canon_unit_zero origin2]
  simp only [View.ld_unit_zero (S := S5000x128) origin2, View.ld_unit_zero (S := S128x128) origin2,
    View.ld_unit_zero (S := S1x128) origin2, View.ld_unit_zero (S := S128x1) origin2, View.ld_unit_zero (S := S1x1) origin2]
  funext y
  show k2_pay2 (iblk2 V c 0 t) (iblk2 V c 1 t) (iblk2 V c 2 t) (iblk2 V c 3 t) (iblk2 V c 4 t) (iblk2 V c 5 t)
      (iblk2 V c 6 t) (iblk2 V c 7 t) y
    = Cert.Rgat.predHead (Cert.Rgat.outLayers (V c main_v1) (V c main_v25) (V c main_arg7) (V c main_v26) (V c main_arg9) (V c main_v27))
        (V c main_arg11) (V c main_v28) (((cfg2.win 9).blk t).view.emb y)
  exact pred_entry (V c main_v1) (V c main_v25) (V c main_arg7) (V c main_v26) (V c main_arg9) (V c main_v27)
    (V c main_arg11) (V c main_v28)
    (iblk2 V c 0 t) (iblk2 V c 1 t) (iblk2 V c 2 t) (iblk2 V c 3 t) (iblk2 V c 4 t) (iblk2 V c 5 t) (iblk2 V c 6 t) (iblk2 V c 7 t)
    (((cfg2.win 8).blk t).view.emb) (((cfg2.win 9).blk t).view.emb) (t.val * 5000) (emb8 t) (emb9 t)
    (rows0 V c t) (rows1 V c t) (whole2 V c t) (whole3 V c t) (whole4 V c t) (whole5 V c t)
    (fun j => congrFun (whole6 V c t) j) (fun j => congrFun (whole7 V c t) j) y

/-- An index of emb is in point t's block iff its row is among the block's 5000. -/
theorem mem_blk8 (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v29_0).slice (win2_8.rect t)).set ↔ _
  rw [View.set_slice_whole, Rect.mem_set_unit]
  exact Iff.rfl
theorem mem_blk9 (t : Fin cfg2.N) (i : S100000x1.Idx) :
    i ∈ ((cfg2.win 9).blk t).view.set ↔ ∀ a : Fin 2, win2_9.index t a * S5000x1.size a ≤ (i a).val
      ∧ (i a).val < win2_9.index t a * S5000x1.size a + S5000x1.size a := by
  show i ∈ ((View.whole main_v29_1).slice (win2_9.rect t)).set ↔ _
  rw [View.set_slice_whole, Rect.mem_set_unit]
  exact Iff.rfl

/-- The twenty blocks cover emb: row r is in the block of point r / 5000. -/
theorem cover8 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hq : (i 0).val / 5000 < cfg2.N := by rw [show cfg2.N = 20 from N_2]; omega
  obtain ⟨_, _, _, _, _, _, _, _, _, _, _, _, _, _, _, _, d0, d1, _⟩ := idx_facts ⟨(i 0).val / 5000, hq⟩
  have d0' : win2_8.index ⟨(i 0).val / 5000, hq⟩ (0 : Fin 2) = (i 0).val / 5000 := d0
  refine ⟨⟨(i 0).val / 5000, hq⟩, flush2_8 _, ?_⟩
  rw [mem_blk8]
  intro a
  match a with
  | ⟨0, _⟩ =>
    show win2_8.index ⟨(i 0).val / 5000, hq⟩ (0 : Fin 2) * 5000 ≤ (i 0).val
      ∧ (i 0).val < win2_8.index ⟨(i 0).val / 5000, hq⟩ (0 : Fin 2) * 5000 + 5000
    omega
  | ⟨1, _⟩ =>
    show win2_8.index ⟨(i 0).val / 5000, hq⟩ (1 : Fin 2) * 128 ≤ (i 1).val
      ∧ (i 1).val < win2_8.index ⟨(i 0).val / 5000, hq⟩ (1 : Fin 2) * 128 + 128
    omega
/-- And pred likewise. -/
theorem cover9 (i : S100000x1.Idx) :
    ∃ t : Fin cfg2.N, (cfg2.win 9).flush t = true ∧ i ∈ ((cfg2.win 9).blk t).view.set := by
  have hi0 : (i 0).val < 100000 := (i 0).isLt
  have hi1 : (i 1).val < 1 := (i 1).isLt
  have hq : (i 0).val / 5000 < cfg2.N := by rw [show cfg2.N = 20 from N_2]; omega
  obtain ⟨_, _, _, _, _, _, _, _, _, _, _, _, _, _, _, _, _, _, d0, d1⟩ := idx_facts ⟨(i 0).val / 5000, hq⟩
  have d0' : win2_9.index ⟨(i 0).val / 5000, hq⟩ (0 : Fin 2) = (i 0).val / 5000 := d0
  refine ⟨⟨(i 0).val / 5000, hq⟩, flush2_9 _, ?_⟩
  rw [mem_blk9]
  intro a
  match a with
  | ⟨0, _⟩ =>
    show win2_9.index ⟨(i 0).val / 5000, hq⟩ (0 : Fin 2) * 5000 ≤ (i 0).val
      ∧ (i 0).val < win2_9.index ⟨(i 0).val / 5000, hq⟩ (0 : Fin 2) * 5000 + 5000
    omega
  | ⟨1, _⟩ =>
    show win2_9.index ⟨(i 0).val / 5000, hq⟩ (1 : Fin 2) * 1 ≤ (i 1).val
      ∧ (i 1).val < win2_9.index ⟨(i 0).val / 5000, hq⟩ (1 : Fin 2) * 1 + 1
    omega

/-- THE THIRD KERNEL'S FIRST ARRAY after its run: the two output layers of the arrays it found. -/
theorem value_emb (c : Dev nD) :
    (dat2 V c).arrAt 8 cfg2.N
      = Cert.Rgat.outLayers (V c main_v1) (V c main_v25) (V c main_arg7) (V c main_v26) (V c main_arg9) (V c main_v27) :=
  (dat2 V c).arrAt_eq_of_cover 8 _ (fun t _ => flushed8_eq V c t) cover8

/-- THE THIRD KERNEL'S SECOND ARRAY after its run: the prediction head on those embeddings. -/
theorem value_pred (c : Dev nD) :
    (dat2 V c).arrAt 9 cfg2.N
      = Cert.Rgat.predHead (Cert.Rgat.outLayers (V c main_v1) (V c main_v25) (V c main_arg7) (V c main_v26) (V c main_arg9) (V c main_v27))
          (V c main_arg11) (V c main_v28) :=
  (dat2 V c).arrAt_eq_of_cover 9 _ (fun t _ => flushed9_eq V c t) cover9

end Cert.Rgat.OutputLayers

end
-- ==== Proof.LibTypedRef.lean ====
/-
  Contents carried to a typed buffer reference and back.

  A module-local function of a host program names its buffers by references that carry the type of the tensor value
  they hold; contents stated at that type are moved to the buffer's own type, and back, along the equation between
  the two.  Moving there and back again, in either order, changes nothing.  Any signature, any value types.
-/
import Idealize.ShloMosaic.Lib.StableHlo

noncomputable section

namespace Cert.Lib.TypedRef

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, hd, hs⟩ := x
  subst h
  rfl

/-- Contents of the buffer moved to the value's type and back are the contents. -/
theorem toBuf_ofBuf (x : TRef sig T) (w : x.ref.ty.Contents Val) : x.toBuf (x.ofBuf w) = w := by
  obtain ⟨r, h, hd, hs⟩ := x
  subst h
  rfl

end Cert.Lib.TypedRef

end
-- ==== Proof.Fold.lean ====
/-
  The contents of the buffers at the boundaries between the kernels and the host stretches, read back to the launch.

  The program's run pushes the launch memory through a host stretch, a kernel, a host stretch, a kernel, three host
  stretches and a kernel. What each kernel finds in its input arrays is what the stretch before it computed from the
  buffers the previous kernel left; a buffer that nothing in between writes is carried along. Reading the chain back:
    the first kernel finds x, W_in and b_in (as one row) and leaves h;
    the second finds the rows of h gathered by source node, the edge types as a column, W_rel and b_rel, and leaves msg;
    the third finds h, the messages averaged by destination node, and the output weights and biases,
  so the two results are the network's embeddings and predictions of the thirteen arguments.
-/
import proofs.«111703_j26723286515871_1_alg».proof.Proof.Gen.KernelIdeal.Frame
import proofs.«111703_j26723286515871_1_alg».proof.Proof.HostTerms
import proofs.«111703_j26723286515871_1_alg».proof.Proof.InputLayer
import proofs.«111703_j26723286515871_1_alg».proof.Proof.Messages
import proofs.«111703_j26723286515871_1_alg».proof.Proof.OutputLayers
import proofs.«111703_j26723286515871_1_alg».proof.Proof.LibTypedRef
import Idealize.ShloMosaic.Lib.StableHlo.Run

set_option maxRecDepth 16384

noncomputable section

namespace Cert.Rgat.Fold

open Idealize.ShloMosaic Idealize.ShloMosaic.ValueIdx Idealize.ShloMosaic.TcCoe Idealize.SL.Sem
open Idealize.ShloMosaic.StableHlo
open Cert.KernelIdeal Cert.KernelIdeal.Gen Cert.Bridge

variable (m : (ℓ : Loc nD τ sig) → Buf (Elt Ideal) ℓ) (ρ : Dev nD → PrngReg) (c : Dev nD)

/-- Computes what a buffer holds after the host stretches in front of a kernel, from the contents at the boundary
    before them. -/
local macro "read_back" : tactic =>
  `(tactic| (dsimp only [V1, W1, V3, W3, V7, W7, W6, W5, hostOps0, hostOps1, hostOps2, hostOps2_1, hostOps2_2]
             after_results))

/-! ## Before and after the first kernel -/

theorem in0_x : V1 m ρ c main_arg0 = (m ((c : Thread nD τ).loc main_arg0)) := by read_back
theorem in0_w : V1 m ρ c main_arg3 = (m ((c : Thread nD τ).loc main_arg3)) := by read_back
theorem in0_b : V1 m ρ c main_v0 = Cert.Rgat.biasRow (m ((c : Thread nD τ).loc main_arg4)) := by
  read_back
  exact reshapeRow_eq _ _ _

/-- After the first kernel its output array holds h. -/
theorem h_at : W2 m ρ c (Proc.devRef .tc main_v1) = (Cert.Rgat.denseRelu (m ((c : Thread nD τ).loc main_arg0)) (m ((c : Thread nD τ).loc main_arg3)) (Cert.Rgat.biasRow (m ((c : Thread nD τ).loc main_arg4)))) := by
  refine (W2_arr m ρ c 3).trans ((Cert.Rgat.InputLayer.value (V1 m ρ) c).trans ?_)
  rw [in0_x, in0_w, in0_b]

/-- A buffer that is none of the first kernel's arrays and that the first stretch does not write is as launched. -/
theorem at2_arg1 : W2 m ρ c (Proc.devRef .tc main_arg1) = (m ((c : Thread nD τ).loc main_arg1)) := by
  rw [W2_of_ne m ρ c main_arg1 (by decide)]; read_back
theorem at2_arg2 : W2 m ρ c (Proc.devRef .tc main_arg2) = (m ((c : Thread nD τ).loc main_arg2)) := by
  rw [W2_of_ne m ρ c main_arg2 (by decide)]; read_back
theorem at2_arg5 : W2 m ρ c (Proc.devRef .tc main_arg5) = (m ((c : Thread nD τ).loc main_arg5)) := by
  rw [W2_of_ne m ρ c main_arg5 (by decide)]; read_back
theorem at2_arg6 : W2 m ρ c (Proc.devRef .tc main_arg6) = (m ((c : Thread nD τ).loc main_arg6)) := by
  rw [W2_of_ne m ρ c main_arg6 (by decide)]; read_back
theorem at2_arg7 : W2 m ρ c (Proc.devRef .tc main_arg7) = (m ((c : Thread nD τ).loc main_arg7)) := by
  rw [W2_of_ne m ρ c main_arg7 (by decide)]; read_back
theorem at2_arg8 : W2 m ρ c (Proc.devRef .tc main_arg8) = (m ((c : Thread nD τ).loc main_arg8)) := by
  rw [W2_of_ne m ρ c main_arg8 (by decide)]; read_back
theorem at2_arg9 : W2 m ρ c (Proc.devRef .tc main_arg9) = (m ((c : Thread nD τ).loc main_arg9)) := by
  rw [W2_of_ne m ρ c main_arg9 (by decide)]; read_back
theorem at2_arg10 : W2 m ρ c (Proc.devRef .tc main_arg10) = (m ((c : Thread nD τ).loc main_arg10)) := by
  rw [W2_of_ne m ρ c main_arg10 (by decide)]; read_back
theorem at2_arg11 : W2 m ρ c (Proc.devRef .tc main_arg11) = (m ((c : Thread nD τ).loc main_arg11)) := by
  rw [W2_of_ne m ρ c main_arg11 (by decide)]; read_back
theorem at2_arg12 : W2 m ρ c (Proc.devRef .tc main_arg12) = (m ((c : Thread nD τ).loc main_arg12)) := by
  rw [W2_of_ne m ρ c main_arg12 (by decide)]; read_back

/-! ## Before and after the second kernel -/

/-- The second kernel finds the rows of h gathered by each edge's source node. -/
theorem in1_hsrc : V3 m ρ c main_v12 = Cert.Rgat.gatherRows (Cert.Rgat.denseRelu (m ((c : Thread nD τ).loc main_arg0)) (m ((c : Thread nD τ).loc main_arg3)) (Cert.Rgat.biasRow (m ((c : Thread nD τ).loc main_arg4)))) (m ((c : Thread nD τ).loc main_arg1)) := by
  read_back
  rw [h_at, at2_arg1]
  rfl
/-- It finds the edge types as a column. -/
theorem in1_types : V3 m ρ c main_v13 = shapeCast S640000x1 (m ((c : Thread nD τ).loc main_arg2)) shapeCasts_S640000_S640000x1 := by
  read_back
  rw [at2_arg2]
  rfl
theorem in1_w : V3 m ρ c main_arg5 = (m ((c : Thread nD τ).loc main_arg5)) := by read_back; exact at2_arg5 m ρ c
theorem in1_b : V3 m ρ c main_arg6 = (m ((c : Thread nD τ).loc main_arg6)) := by read_back; exact at2_arg6 m ρ c

/-- Entry (e, 0) of the column of edge types is entry e of the vector. -/
theorem types_col (i : S640000x128.Idx) :
    V3 m ρ c main_v13 (colZero i) = (m ((c : Thread nD τ).loc main_arg2)) (Cert.Lib.FlagMask.vecIdx i) := by
  rw [in1_types]
  refine shapeCast_apply _ _ _ _ ?_
  show (S640000.rowMajor (Cert.Lib.FlagMask.vecIdx i)).val = (S640000x1.rowMajor (colZero i)).val
  rw [Shape.rowMajor_val_one, Shape.rowMajor_val_two]
  show (i 0).val = (i 0).val * 1 + 0
  omega

/-- After the second kernel its output array holds the messages. -/
theorem msg_at : W4 m ρ c (Proc.devRef .tc main_v14) = (Cert.Rgat.messages (Cert.Rgat.gatherRows (Cert.Rgat.denseRelu (m ((c : Thread nD τ).loc main_arg0)) (m ((c : Thread nD τ).loc main_arg3)) (Cert.Rgat.biasRow (m ((c : Thread nD τ).loc main_arg4)))) (m ((c : Thread nD τ).loc main_arg1))) (m ((c : Thread nD τ).loc main_arg2)) (m ((c : Thread nD τ).loc main_arg5)) (m ((c : Thread nD τ).loc main_arg6))) := by
  refine (W4_arr m ρ c 4).trans ((Cert.Rgat.Messages.value (V3 m ρ) c (m ((c : Thread nD τ).loc main_arg2)) (types_col m ρ c)).trans ?_)
  rw [in1_hsrc, in1_w, in1_b]

/-- What the second kernel and the stretch before it do not write is carried along. -/
theorem at4_h : W4 m ρ c (Proc.devRef .tc main_v1) = (Cert.Rgat.denseRelu (m ((c : Thread nD τ).loc main_arg0)) (m ((c : Thread nD τ).loc main_arg3)) (Cert.Rgat.biasRow (m ((c : Thread nD τ).loc main_arg4)))) := by
  rw [W4_of_ne m ρ c main_v1 (by decide)]; read_back; exact h_at m ρ c
theorem at4_dst : W4 m ρ c (Proc.devRef .tc main_v5)
    = Cert.Rgat.edgeRow ![1, 0] Cert.ReferenceIdeal.Gen.slices_S2x640000_S1x640000_1_0 (m ((c : Thread nD τ).loc main_arg1)) := by
  rw [W4_of_ne m ρ c main_v5 (by decide)]; read_back; rw [at2_arg1]; rfl
theorem at4_arg7 : W4 m ρ c (Proc.devRef .tc main_arg7) = (m ((c : Thread nD τ).loc main_arg7)) := by
  rw [W4_of_ne m ρ c main_arg7 (by decide)]; read_back; exact at2_arg7 m ρ c
theorem at4_arg8 : W4 m ρ c (Proc.devRef .tc main_arg8) = (m ((c : Thread nD τ).loc main_arg8)) := by
  rw [W4_of_ne m ρ c main_arg8 (by decide)]; read_back; exact at2_arg8 m ρ c
theorem at4_arg9 : W4 m ρ c (Proc.devRef .tc main_arg9) = (m ((c : Thread nD τ).loc main_arg9)) := by
  rw [W4_of_ne m ρ c main_arg9 (by decide)]; read_back; exact at2_arg9 m ρ c
theorem at4_arg10 : W4 m ρ c (Proc.devRef .tc main_arg10) = (m ((c : Thread nD τ).loc main_arg10)) := by
  rw [W4_of_ne m ρ c main_arg10 (by decide)]; read_back; exact at2_arg10 m ρ c
theorem at4_arg11 : W4 m ρ c (Proc.devRef .tc main_arg11) = (m ((c : Thread nD τ).loc main_arg11)) := by
  rw [W4_of_ne m ρ c main_arg11 (by decide)]; read_back; exact at2_arg11 m ρ c
theorem at4_arg12 : W4 m ρ c (Proc.devRef .tc main_arg12) = (m ((c : Thread nD τ).loc main_arg12)) := by
  rw [W4_of_ne m ρ c main_arg12 (by decide)]; read_back; exact at2_arg12 m ρ c

/-! ## Before and after the third kernel -/

theorem in2_h : V7 m ρ c main_v1 = (Cert.Rgat.denseRelu (m ((c : Thread nD τ).loc main_arg0)) (m ((c : Thread nD τ).loc main_arg3)) (Cert.Rgat.biasRow (m ((c : Thread nD τ).loc main_arg4)))) := by read_back; exact at4_h m ρ c
/-- The first stretch after the second kernel sums the messages' rows by destination node … -/
theorem sum_of (W : Valuation τ sig (Elt Ideal)) :
    StableHlo.after hostOps2 W (Proc.devRef .tc main_v17)
      = Host.scatterAdd scatter_S100000x128_S640000x1_S640000x128_1_0_0_1
          (broadcastInDim S100000x128 ![] bcast_S_S100000x128 (constant (F := Ideal) S_ .f32 0x00000000#32))
          (broadcastInDim S640000x1 ![0] bcast_S640000_S640000x1_0 (W (Proc.devRef .tc main_v5)))
          (W (Proc.devRef .tc main_v14)) := by
  dsimp only [hostOps2]
  after_results
/-- … counts every node's incoming edges … -/
theorem count_of (W : Valuation τ sig (Elt Ideal)) :
    StableHlo.after hostOps2 W (Proc.devRef .tc main_v21)
      = Host.scatterAdd scatter_S100000_S640000x1_S640000_n_0_0_1
          (broadcastInDim S100000 ![] bcast_S_S100000 (constant (F := Ideal) S_ .f32 0x00000000#32))
          (broadcastInDim S640000x1 ![0] bcast_S640000_S640000x1_0 (W (Proc.devRef .tc main_v5)))
          (broadcastInDim S640000 ![] bcast_S_S640000 (constant (F := Ideal) S_ .f32 0x3F800000#32)) := by
  dsimp only [hostOps2]
  after_results
/-- … and sets down the constant one. -/
theorem one_of (W : Valuation τ sig (Elt Ideal)) :
    StableHlo.after hostOps2 W (Proc.devRef .tc main_cst_3) = constant (F := Ideal) S_ .f32 0x3F800000#32 := by
  dsimp only [hostOps2]
  after_results
/-- The second stretch raises the counts to at least the constant it is handed … -/
theorem clip_of (W : Valuation τ sig (Elt Ideal)) :
    StableHlo.after hostOps2_1 W (Proc.devRef .tc main_v22)
      = (maximumf (broadcastInDim S100000 ![] bcast_S_S100000 (id (W (Proc.devRef .tc main_cst_3) : FVec Ideal S_ .f32)))
          (W (Proc.devRef .tc main_v21) : FVec Ideal S100000 .f32) : FVec Ideal S100000 .f32) := by
  dsimp only [hostOps2_1]
  after_results
  simp only [Cert.Lib.TypedRef.ofBuf_toBuf, Cert.Lib.TypedRef.toBuf_ofBuf]
  rfl
/-- … and leaves the sums alone. -/
theorem clip_keeps_sum (W : Valuation τ sig (Elt Ideal)) :
    StableHlo.after hostOps2_1 W (Proc.devRef .tc main_v17) = W (Proc.devRef .tc main_v17) := by
  dsimp only [hostOps2_1]
  after_results
/-- The third stretch divides every row of sums by its node's count. -/
theorem div_of (W : Valuation τ sig (Elt Ideal)) :
    StableHlo.after hostOps2_2 W (Proc.devRef .tc main_v25)
      = (Host.divf (W (Proc.devRef .tc main_v17) : FVec Ideal S100000x128 .f32)
          (broadcastInDim S100000x128 ![0, 1] bcast_S100000x1_S100000x128_0_1
            (broadcastInDim S100000x1 ![0] bcast_S100000_S100000x1_0 (W (Proc.devRef .tc main_v22) : FVec Ideal S100000 .f32)))
          : FVec Ideal S100000x128 .f32) := by
  dsimp only [hostOps2_2]
  after_results
/-- Together the three stretches average, by destination node, whatever the message buffer and the destination
    buffer hold when they start. -/
theorem agg_of (W : Valuation τ sig (Elt Ideal)) :
    StableHlo.after hostOps2_2 (StableHlo.after hostOps2_1 (StableHlo.after hostOps2 W)) (Proc.devRef .tc main_v25)
      = Cert.Rgat.aggNorm
          (broadcastInDim S640000x1 ![0] Cert.ReferenceIdeal.Gen.bcast_S640000_S640000x1_0 (W (Proc.devRef .tc main_v5)))
          (W (Proc.devRef .tc main_v14)) := by
  rw [div_of, clip_keeps_sum, clip_of, sum_of, count_of, one_of]
  generalize W (Proc.devRef .tc main_v5) = d
  generalize W (Proc.devRef .tc main_v14) = M
  rfl
/-- The third kernel finds the messages averaged by destination node. -/
theorem in2_agg : V7 m ρ c main_v25 = Cert.Rgat.aggNorm (Cert.Rgat.dstCol (m ((c : Thread nD τ).loc main_arg1))) (Cert.Rgat.messages (Cert.Rgat.gatherRows (Cert.Rgat.denseRelu (m ((c : Thread nD τ).loc main_arg0)) (m ((c : Thread nD τ).loc main_arg3)) (Cert.Rgat.biasRow (m ((c : Thread nD τ).loc main_arg4)))) (m ((c : Thread nD τ).loc main_arg1))) (m ((c : Thread nD τ).loc main_arg2)) (m ((c : Thread nD τ).loc main_arg5)) (m ((c : Thread nD τ).loc main_arg6))) := by
  refine (agg_of (W4 m ρ c)).trans ?_
  rw [msg_at, at4_dst]
  rfl
theorem in2_w1 : V7 m ρ c main_arg7 = (m ((c : Thread nD τ).loc main_arg7)) := by read_back; exact at4_arg7 m ρ c
theorem in2_b1 : V7 m ρ c main_v26 = Cert.Rgat.biasRow (m ((c : Thread nD τ).loc main_arg8)) := by
  read_back; rw [at4_arg8]; exact reshapeRow_eq _ _ _
theorem in2_w2 : V7 m ρ c main_arg9 = (m ((c : Thread nD τ).loc main_arg9)) := by read_back; exact at4_arg9 m ρ c
theorem in2_b2 : V7 m ρ c main_v27 = Cert.Rgat.biasRow (m ((c : Thread nD τ).loc main_arg10)) := by
  read_back; rw [at4_arg10]; exact reshapeRow_eq _ _ _
theorem in2_wp : V7 m ρ c main_arg11 = (m ((c : Thread nD τ).loc main_arg11)) := by read_back; exact at4_arg11 m ρ c
theorem in2_bp : V7 m ρ c main_v28
    = broadcastInDim S1x1 ![1] Cert.ReferenceIdeal.Gen.bcast_S1_S1x1_1 (m ((c : Thread nD τ).loc main_arg12)) := by
  read_back; rw [at4_arg12]; exact reshapeRow_eq (C := 1) (φ := .f32) _ _ _

/-- THE FIRST RESULT is the node embeddings of the arguments. -/
theorem out0 : W8 m ρ c (Proc.devRef .tc main_v29_0) = Cert.Rgat.embedding (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 8).trans ((Cert.Rgat.OutputLayers.value_emb (V7 m ρ) c).trans ?_)
  rw [in2_h, in2_agg, in2_w1, in2_b1, in2_w2, in2_b2]
  rfl

/-- THE SECOND RESULT is the predictions. -/
theorem out1 : W8 m ρ c (Proc.devRef .tc main_v29_1)
    = Cert.Rgat.prediction (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 9).trans ((Cert.Rgat.OutputLayers.value_pred (V7 m ρ) c).trans ?_)
  rw [in2_h, in2_agg, in2_w1, in2_b1, in2_w2, in2_b2, in2_wp, in2_bp]
  rfl

end Cert.Rgat.Fold

end
-- ==== Proof.RefSide.lean ====
/-
  The reference program's two results are the stages composed.

  Its run ends with each result at one long term of host operations over the argument arrays; unfolding the stages of
  the network gives that term back, operation by operation.
-/
import proofs.«111703_j26723286515871_1_alg».proof.Proof.Gen.ReferenceIdeal.Run
import proofs.«111703_j26723286515871_1_alg».proof.Proof.HostTerms

set_option maxRecDepth 16384

noncomputable section

namespace Cert.Rgat.RefSide

open Idealize.ShloMosaic Idealize.ShloMosaic.TcCoe Idealize.SL.Sem Cert.ReferenceIdeal Cert.ReferenceIdeal.Gen

/-- The reference's first result is the node embeddings of its arguments. -/
theorem out0_eq (m : (ℓ : Loc nD τ sig) → Buf (Elt Ideal) ℓ) (c : Dev nD) :
    Cert.ReferenceIdeal.Value.res_main_v127 (F := Ideal) m c
      = Cert.Rgat.embedding
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  unfold Cert.ReferenceIdeal.Value.res_main_v127 Cert.Rgat.embedding Cert.Rgat.outLayers Cert.Rgat.denseRelu Cert.Rgat.aggNorm
    Cert.Rgat.messages Cert.Rgat.relTerm Cert.Rgat.gatherRows Cert.Rgat.srcCol Cert.Rgat.dstCol Cert.Rgat.edgeRow Cert.Rgat.biasRow
  rfl

/-- The reference's second result is the predictions of its arguments. -/
theorem out1_eq (m : (ℓ : Loc nD τ sig) → Buf (Elt Ideal) ℓ) (c : Dev nD) :
    Cert.ReferenceIdeal.Value.res_main_v131 (F := Ideal) m c
      = Cert.Rgat.prediction
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) (m ((c.tc : Thread nD τ).loc main_arg12)) := by
  unfold Cert.ReferenceIdeal.Value.res_main_v131 Cert.Rgat.prediction Cert.Rgat.predHead Cert.Rgat.embedding Cert.Rgat.outLayers
    Cert.Rgat.denseRelu Cert.Rgat.aggNorm Cert.Rgat.messages Cert.Rgat.relTerm Cert.Rgat.gatherRows Cert.Rgat.srcCol Cert.Rgat.dstCol
    Cert.Rgat.edgeRow Cert.Rgat.biasRow
  rfl

end Cert.Rgat.RefSide

end
-- ==== Proof.lean ====
/-
  The certificate's five claims for a relational graph layer computed by three pipelined kernels.

  Both programs compute, on the extended reals, the same composition of stages (Proof/HostTerms.lean):
  h = max(x · W_in + b_in, 0); the rows of h gathered by source node; the six relations' masked dense shares summed;
  those messages averaged by destination node; two dense output layers on h plus the average; a prediction head.
  The reference applies the stages as host operations, so its result terms are the composition by unfolding
  (Proof/RefSide.lean). The kernel program computes the first, third and last two stages in kernels, block of rows
  by block of rows — each block is the block of the whole-array stage because every operation acts row by row, and
  the narrowing in front of each matrix product is the identity on the extended reals (Proof/InputLayer.lean,
  Proof/Messages.lean, Proof/OutputLayers.lean) — and the gather, the sums by destination and the division as the
  same host operations as the reference; reading the buffers' contents back from the end of its run to the launch
  (Proof/KRun.lean, Proof/Fold.lean) gives the same composition. No law of arithmetic is used beyond that; in
  particular nothing needs the inputs to be finite. The ideal pass rewrote nothing, so the third claim is trivial; the
  frames are the generated ones, the reference's being its generated run with the results dropped.
-/
import proofs.«111703_j26723286515871_1_alg».proof.Defs
import proofs.«111703_j26723286515871_1_alg».proof.Proof.Gen.Kernel
import proofs.«111703_j26723286515871_1_alg».proof.Proof.Gen.Kernel.Frame
import proofs.«111703_j26723286515871_1_alg».proof.Proof.Gen.KernelIdeal
import proofs.«111703_j26723286515871_1_alg».proof.Proof.Gen.KernelIdeal.Frame
import proofs.«111703_j26723286515871_1_alg».proof.Proof.Gen.ReferenceIdeal
import proofs.«111703_j26723286515871_1_alg».proof.Proof.Gen.ReferenceIdeal.Run
import proofs.«111703_j26723286515871_1_alg».proof.Proof.Gen.Pre_finite_inputs
import proofs.«111703_j26723286515871_1_alg».proof.Proof.KRun
import proofs.«111703_j26723286515871_1_alg».proof.Proof.Fold
import proofs.«111703_j26723286515871_1_alg».proof.Proof.RefSide

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run names its two results; the frame claim keeps the arguments' part of it. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the thirteen arguments both programs end with the embeddings and the predictions of
    those arguments. -/
theorem algebraic : Cert.algebraic_KernelIdeal_ReferenceIdeal := by
  intro m ρ m' ρ' _ hagree
  refine ⟨_, _,
    (θ_run Cert.KernelIdeal.defs _ _).mono
      (fun r h c => ⟨(h c).1.trans (Cert.Rgat.Fold.out0 m ρ c), (h c).2.1.trans (Cert.Rgat.Fold.out1 m ρ c), (h c).2.2⟩)
      (Cert.KernelIdeal.Named.run_named (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.Rgat.RefSide.out0_eq, h0, h1, h2, h3, h4, h5, h6, h7, h8, h9, h10]
  · obtain ⟨h0, h1, h2, h3, h4, h5, h6, h7, h8, h9, h10, h11, h12⟩ := hagree c
    rw [Cert.Rgat.RefSide.out1_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
